-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S10x96 : Shape := ⟨2, ![10, 96]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S10x96 : S_.BroadcastsInDim S10x96 (![] : Fin 0 → Fin S10x96.rank)
  reducesTo_S10x96_S_d0_1 : S10x96.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S96 .f32) (main_arg7 : FVec F S10x96 .f32) (main_arg8 : FVec F S10 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S10x96 .f32 := Host.absf main_arg7
  let main_cst_8 : FVec F S_ .f32 := constant S_ .f32 0x7F800000#32
  let main_v25 : FVec F S10x96 .f32 := broadcastInDim S10x96 ![] bcast_S_S10x96 main_cst_8
  let main_v26 : IVec S10x96 1 := cmpf .olt main_v24 main_v25
  let main_c_9 : IVec S_ 1 := constantI S_ 1 1#1
  let main_v27 : IVec S_ 1 := (fun x v => Host.reduce IntOp.andi x v reducesTo_S10x96_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x96 .f32) (main_arg4 : FVec F S96 .f32) (main_arg5 : FVec F S96x96 .f32) (main_arg6 : FVec F S96 .f32) (main_arg7 : FVec F S10x96 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S10x96 : Shape := ⟨2, ![10, 96]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x96 : Shape := ⟨2, ![1, 96]⟩
abbrev S50000x96 : Shape := ⟨2, ![50000, 96]⟩
abbrev S5000x128 : Shape := ⟨2, ![5000, 128]⟩
abbrev S5000x96 : Shape := ⟨2, ![5000, 96]⟩
abbrev S800000x96 : Shape := ⟨2, ![800000, 96]⟩
abbrev S5000x1 : Shape := ⟨2, ![5000, 1]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 102
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S10x96, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S50000, .f32⟩
  | .hbm, ⟨45, _⟩ => ⟨S50000x1, .f32⟩
  | .hbm, ⟨46, _⟩ => ⟨S1x96, .f32⟩
  | .hbm, ⟨47, _⟩ => ⟨S1x96, .f32⟩
  | .hbm, ⟨48, _⟩ => ⟨S50000x96, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x96, .f32⟩
  | .hbm, ⟨59, _⟩ => ⟨S800000x96, .f32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S50000x96, .f32⟩
  | .hbm, ⟨66, _⟩ => ⟨S50000x96, .f32⟩
  | .hbm, ⟨67, _⟩ => ⟨S800000x1, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x96, .f32⟩
  | .hbm, ⟨77, _⟩ => ⟨S800000x96, .f32⟩
  | .hbm, ⟨78, _⟩ => ⟨S800000x96, .f32⟩
  | .hbm, ⟨79, _⟩ => ⟨S_, .f32⟩
  | .hbm, ⟨80, _⟩ => ⟨S50000x96, .f32⟩
  | .hbm, ⟨81, _⟩ => ⟨S800000x1, .i32⟩
  | .hbm, ⟨82, _⟩ => ⟨S50000x96, .f32⟩
  | .hbm, ⟨83, _⟩ => ⟨S50000x96, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S128, .f32⟩
  | .hbm, ⟨88, _⟩ => ⟨S50000x1, .i32⟩
  | .hbm, ⟨89, _⟩ => ⟨S128, .f32⟩
  | .hbm, ⟨90, _⟩ => ⟨S_, .f32⟩
  | .hbm, ⟨91, _⟩ => ⟨S128x96, .f32⟩
  | .hbm, ⟨92, _⟩ => ⟨S50000x1, .i32⟩
  | .hbm, ⟨93, _⟩ => ⟨S128x96, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x96, .f32⟩
  | .hbm, ⟨99, _⟩ => ⟨S128x96, .f32⟩
  | .hbm, ⟨100, _⟩ => ⟨S1x10, .f32⟩
  | .hbm, ⟨101, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x1, .f32⟩
  | .local _ .vmem, ⟨24, _⟩ => ⟨S5000x1, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S128x96, .f32⟩
  | .local _ .vmem, ⟨29, _⟩ => ⟨S10x96, .f32⟩
  | .local _ .vmem, ⟨30, _⟩ => ⟨S1x10, .f32⟩
  | .local _ .vmem, ⟨31, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x96 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S10x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  bcast_S_S128 : S_.BroadcastsInDim S128 (![] : Fin 0 → Fin S128.rank)
  bcast_S50000_S50000x1_0 : S50000.BroadcastsInDim S50000x1 (![0] : Fin 1 → Fin S50000x1.rank)
  bcast_S_S128x96 : S_.BroadcastsInDim S128x96 (![] : Fin 0 → Fin S128x96.rank)
  bcast_S128_S128x1_0 : S128.BroadcastsInDim S128x1 (![0] : Fin 1 → Fin S128x1.rank)
  bcast_S128x1_S128x96_0_1 : S128x1.BroadcastsInDim S128x96 (![0, 1] : Fin 2 → Fin S128x96.rank)
  shapeCasts_S10_S1x10 : S10.ShapeCasts S1x10
  shapeCasts_S128x96_S128x96 : S128x96.ShapeCasts S128x96
  inb_S10x96_S10x96_0_0 : ∀ a, (![0, 0] : Fin 2 → Nat) a + S10x96.size a ≤ S10x96.size a
  h_S10x96 : 0 < S10x96.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  scatter_S128_S50000x1_S50000_n_0_0_1_wf : ScatterDims.WF S128 S50000x1 S50000 [] [0] [0] 1
  scatter_S128x96_S50000x1_S50000x96_1_0_0_1_wf : ScatterDims.WF S128x96 S50000x1 S50000x96 [1] [0] [0] 1
  dot_S128x96_S10x96_S128x10_1_1_0_0_n_n_wf : DotDims.WF S128x96 S10x96 S128x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x96.size a ≤ S128x96.size a
  hwx4_0 : ∀ i : grid4.Coords, EltTy.bits .f32 = 32 ∨ (Rect.block (s := S128x96) S128x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x96.size a ≤ S10x96.size a
  hwx4_1 : ∀ i : grid4.Coords, EltTy.bits .f32 = 32 ∨ (Rect.block (s := S10x96) S10x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x96_S50000x1_S50000x96_1_0_0_1 : ScatterDims S128x96 S50000x1 S50000x96 where
  updateWindowDims := [1]
  insertedWindowDims := [0]
  scatterDimsToOperandDims := [0]
  indexVectorDim := 1
  wf := scatter_S128x96_S50000x1_S50000x96_1_0_0_1_wf
def dot_S128x96_S10x96_S128x10_1_1_0_0_n_n : DotDims S128x96 S10x96 S128x10 where
  lhsContracting := [1]
  rhsContracting := [1]
  lhsNonContracting := [0]
  rhsNonContracting := [0]
  lhsBatch := []
  rhsBatch := []
  wf := dot_S128x96_S10x96_S128x10_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S128x96.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S10x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S128x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S10x96 : Shape := ⟨2, ![10, 96]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x96 : Shape := ⟨2, ![50000, 96]⟩
abbrev S800000x96 : Shape := ⟨2, ![800000, 96]⟩
abbrev S50000x1 : Shape := ⟨2, ![50000, 1]⟩
abbrev S1x96 : Shape := ⟨2, ![1, 96]⟩
abbrev S128 : Shape := ⟨1, ![128]⟩
abbrev S128x1 : Shape := ⟨2, ![128, 1]⟩
abbrev S96x10 : Shape := ⟨2, ![96, 10]⟩
abbrev S128x10 : Shape := ⟨2, ![128, 10]⟩
abbrev S1x10 : Shape := ⟨2, ![1, 10]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S96x96, .f32⟩
  | 6 => ⟨S96, .f32⟩
  | 7 => ⟨S10x96, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000x96, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x96, .f32⟩
  | 55 => ⟨S800000x96, .f32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S50000, .f32⟩
  | 62 => ⟨S50000x1, .f32⟩
  | 63 => ⟨S50000x96, .f32⟩
  | 64 => ⟨S50000x96, .f32⟩
  | 65 => ⟨S50000x96, .f32⟩
  | 66 => ⟨S1x96, .f32⟩
  | 67 => ⟨S50000x96, .f32⟩
  | 68 => ⟨S50000x96, .f32⟩
  | 69 => ⟨S_, .f32⟩
  | 70 => ⟨S50000x96, .f32⟩
  | 71 => ⟨S50000x96, .f32⟩
  | 72 => ⟨S50000x96, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x96, .f32⟩
  | 83 => ⟨S800000x96, .f32⟩
  | 84 => ⟨S800000x96, .f32⟩
  | 85 => ⟨S_, .f32⟩
  | 86 => ⟨S50000x96, .f32⟩
  | 87 => ⟨S800000x1, .i32⟩
  | 88 => ⟨S50000x96, .f32⟩
  | 89 => ⟨S50000, .f32⟩
  | 90 => ⟨S50000x1, .f32⟩
  | 91 => ⟨S50000x96, .f32⟩
  | 92 => ⟨S50000x96, .f32⟩
  | 93 => ⟨S50000x96, .f32⟩
  | 94 => ⟨S1x96, .f32⟩
  | 95 => ⟨S50000x96, .f32⟩
  | 96 => ⟨S50000x96, .f32⟩
  | 97 => ⟨S_, .f32⟩
  | 98 => ⟨S50000, .f32⟩
  | 99 => ⟨S_, .f32⟩
  | 100 => ⟨S128, .f32⟩
  | 101 => ⟨S50000x1, .i32⟩
  | 102 => ⟨S128, .f32⟩
  | 103 => ⟨S_, .f32⟩
  | 104 => ⟨S128x96, .f32⟩
  | 105 => ⟨S50000x1, .i32⟩
  | 106 => ⟨S128x96, .f32⟩
  | 107 => ⟨S_, .f32⟩
  | 108 => ⟨S128, .f32⟩
  | 109 => ⟨S128, .f32⟩
  | 110 => ⟨S128x1, .f32⟩
  | 111 => ⟨S128x96, .f32⟩
  | 112 => ⟨S128x96, .f32⟩
  | 113 => ⟨S96x10, .f32⟩
  | 114 => ⟨S128x10, .f32⟩
  | 115 => ⟨S1x10, .f32⟩
  | 116 => ⟨S128x10, .f32⟩
  | 117 => ⟨S128x10, .f32⟩
  | 118 => ⟨S_, .f32⟩
  | 119 => ⟨S128, .f32⟩
  | 120 => ⟨S_, .f32⟩
  | 121 => ⟨S128, .f32⟩
  | 122 => ⟨S128, .f32⟩
  | 123 => ⟨S128x1, .f32⟩
  | 124 => ⟨S128x10, .f32⟩
  | 125 => ⟨S128x10, .f32⟩
  | 126 => ⟨S128x10, .f32⟩
  | 127 => ⟨S_, .f32⟩
  | _ => ⟨S50000x128, .f32⟩

abbrev hbmTy0_1 (i : Nat) : BufTy := match i % 128 with
  | 0 => ⟨S128, .f32⟩
  | 1 => ⟨S128x1, .f32⟩
  | 2 => ⟨S128x1, .f32⟩
  | 3 => ⟨S128x10, .f32⟩
  | 4 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_call1_cst_0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_v6 : Ref sig .tc := ⟨.hbm, 126, rfl⟩
abbrev main_call1_cst_1 : Ref sig .tc := ⟨.hbm, 127, rfl⟩
abbrev main_call1_v7 : Ref sig .tc := ⟨.hbm, 128, rfl⟩
abbrev main_call1_v8 : Ref sig .tc := ⟨.hbm, 129, rfl⟩
abbrev main_call1_v9 : Ref sig .tc := ⟨.hbm, 130, rfl⟩
abbrev main_call1_v10 : Ref sig .tc := ⟨.hbm, 131, rfl⟩
abbrev main_v89 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S128 : S_.BroadcastsInDim S128 (![] : Fin 0 → Fin S128.rank)
  bcast_S_S128x96 : S_.BroadcastsInDim S128x96 (![] : Fin 0 → Fin S128x96.rank)
  bcast_S128_S128x1_0 : S128.BroadcastsInDim S128x1 (![0] : Fin 1 → Fin S128x1.rank)
  bcast_S128x1_S128x96_0_1 : S128x1.BroadcastsInDim S128x96 (![0, 1] : Fin 2 → Fin S128x96.rank)
  transposes_S10x96_S96x10_1_0 : S10x96.Transposes [1, 0] S96x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  scatter_S128_S50000x1_S50000_n_0_0_1_wf : ScatterDims.WF S128 S50000x1 S50000 [] [0] [0] 1
  scatter_S128x96_S50000x1_S50000x96_1_0_0_1_wf : ScatterDims.WF S128x96 S50000x1 S50000x96 [1] [0] [0] 1
  dot_S128x96_S96x10_S128x10_1_0_0_1_n_n_wf : DotDims.WF S128x96 S96x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x96_S50000x1_S50000x96_1_0_0_1 : ScatterDims S128x96 S50000x1 S50000x96 where
  updateWindowDims := [1]
  insertedWindowDims := [0]
  scatterDimsToOperandDims := [0]
  indexVectorDim := 1
  wf := scatter_S128x96_S50000x1_S50000x96_1_0_0_1_wf
def dot_S128x96_S96x10_S128x10_1_0_0_1_n_n : DotDims S128x96 S96x10 S128x10 where
  lhsContracting := [1]
  rhsContracting := [0]
  lhsNonContracting := [0]
  rhsNonContracting := [1]
  lhsBatch := []
  rhsBatch := []
  wf := dot_S128x96_S96x10_S128x10_1_0_0_1_n_n_wf

class Facts : Prop extends Facts₀ where

variable [Facts]
-- ==== Proof.KernelRun.lean ====
/-
  The run of the five-region program with its RESULT named. The argument arrays end as launched and the result
  buffer ends at the last boundary's contents: what the last region's write-backs leave in its output array.
  The segment list, the thread states and the launch are those of the frame certificate; only the property read
  off the final memory is larger (the result buffer beside the arguments).
-/
import proofs.«110277_j8134668059260_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents of
    the last boundary and every argument array as launched. -/
theorem run_main : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.Gcn.KernelRun

end
-- ==== Proof.Spec.lean ====
/-
  A two-layer graph convolution with mean pooling and a log-softmax head, written once as a function of its nine
  arguments on the extended reals, in the host's whole-array operations.

  With e the [2, E] list of edges (row 0 the sources, row 1 the destinations), d = (1 + in-degree)^(-1/2) and
  n_j = d(src j) · d(dst j), one layer sends h to  A(h·W) + d²·(h·W) + b,  where A(g)(v) is the sum over the edges
  j with destination v of n_j · g(src j); the first layer is followed by max(·, 0). The pooled features are the
  per-graph sums of the second layer's rows divided by max(count, 1); the head is the logarithm of the softmax
  along each row of  pooled · Wfᵀ + bf.
-/
import proofs.«110277_j8134668059260_1_alg».proof.Proof.Gen.ReferenceIdeal
import Idealize.ShloMosaic.PureOps.Ideal

noncomputable section

namespace Cert.Gcn.Spec

open Cert.ReferenceIdeal Cert.ReferenceIdeal.Gen Idealize.ShloMosaic

/-- A float array of shape S on the extended reals. -/
abbrev FA (S : Shape) : Type := FVec Ideal S .f32
/-- A 32-bit integer array of shape S. -/
abbrev IA (S : Shape) : Type := IVec S 32

/-- The edges' sources: row 0 of the edge list. -/
def src (e : IA S2x800000) : IA S800000 :=
  shapeCast _ (extractStridedSlice S1x800000 ![0, 0] e slices_S2x800000_S1x800000_0_0) shapeCasts_S1x800000_S800000

/-- The edges' destinations: row 1 of the edge list. -/
def dst (e : IA S2x800000) : IA S800000 :=
  shapeCast _ (extractStridedSlice S1x800000 ![1, 0] e slices_S2x800000_S1x800000_1_0) shapeCasts_S1x800000_S800000

/-- Node numbers as a column of start indices. -/
def asCol (v : IA S800000) : IA S800000x1 := broadcastInDim S800000x1 ![0] bcast_S800000_S800000x1_0 v

/-- Node numbers with a negative number counted from the end, as a column of start indices. -/
def wrapped (v : IA S800000) : IA S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- d = (1 + in-degree)^(-1/2), node by node. -/
def dinv (e : IA S2x800000) : FA S50000 :=
  Host.powf
    (addf
      (Host.scatterAdd scatter_S50000_S800000x1_S800000_n_0_0_1
        (broadcastInDim S50000 ![] bcast_S_S50000 (constant (F := Ideal) S_ .f32 0x00000000#32))
        (asCol (dst e))
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- n_j = d(src j) · d(dst j), edge by edge. -/
def norm (e : IA S2x800000) : FA S800000 :=
  mulf (Host.gather gather_S50000_S800000x1_S800000_n_0_n_n_0_1_1 (dinv e) (wrapped (src e)))
    (Host.gather gather_S50000_S800000x1_S800000_n_0_n_n_0_1_1 (dinv e) (wrapped (dst e)))

/-- The aggregation from given edge weights n, sources s and destinations d: at node v the sum over the edges j
    with d(j) = v of n_j · g(s(j)). -/
def aggOf (n : FA S800000) (s d : IA S800000) (g : FA S50000x96) : FA S50000x96 :=
  Host.scatterAdd scatter_S50000x96_S800000x1_S800000x96_1_0_0_1
    (broadcastInDim S50000x96 ![] bcast_S_S50000x96 (constant (F := Ideal) S_ .f32 0x00000000#32))
    (asCol d)
    (mulf
      (broadcastInDim S800000x96 ![0, 1] bcast_S800000x1_S800000x96_0_1
        (broadcastInDim S800000x1 ![0] bcast_S800000_S800000x1_0 n))
      (Host.gather gather_S50000x96_S800000x1_S800000x96_1_0_n_n_0_1_196 g (wrapped s)))

/-- A(g): at node v the sum over the edges j into v of n_j · g(src j). -/
def agg (e : IA S2x800000) (g : FA S50000x96) : FA S50000x96 := aggOf (norm e) (src e) (dst e) g

/-- d² as a column. -/
def selfCol (e : IA S2x800000) : FA S50000x1 :=
  broadcastInDim S50000x1 ![0] bcast_S50000_S50000x1_0 (mulf (dinv e) (dinv e))

/-- A bias vector as one row. -/
def biasRow (b : FA S96) : FA S1x96 := broadcastInDim S1x96 ![1] bcast_S96_S1x96_1 b

/-- a + col · g + row, the column repeated across the columns and the row down the rows. -/
def combine (a g : FA S50000x96) (col : FA S50000x1) (row : FA S1x96) : FA S50000x96 :=
  addf (addf a (mulf (broadcastInDim S50000x96 ![0, 1] bcast_S50000x1_S50000x96_0_1 col) g))
    (broadcastInDim S50000x96 ![0, 1] bcast_S1x96_S50000x96_0_1 row)

/-- max(·, 0), entry by entry. -/
def relu (x : FA S50000x96) : FA S50000x96 :=
  maximumf x (broadcastInDim S50000x96 ![] bcast_S_S50000x96 (constant (F := Ideal) S_ .f32 0x00000000#32))

/-- x · W1. -/
def lin1 (x : FA S50000x128) (w : FA S128x96) : FA S50000x96 :=
  Host.dotGeneral dot_S50000x128_S128x96_S50000x96_1_0_0_1_n_n none x w

/-- h · W2. -/
def lin2 (h : FA S50000x96) (w : FA S96x96) : FA S50000x96 :=
  Host.dotGeneral dot_S50000x96_S96x96_S50000x96_1_0_0_1_n_n none h w

/-- The first layer: max(A(x·W1) + d²·(x·W1) + b1, 0). -/
def layer1 (e : IA S2x800000) (x : FA S50000x128) (w : FA S128x96) (b : FA S96) : FA S50000x96 :=
  relu (combine (agg e (lin1 x w)) (lin1 x w) (selfCol e) (biasRow b))

/-- The second layer: A(h·W2) + d²·(h·W2) + b2. -/
def layer2 (e : IA S2x800000) (h : FA S50000x96) (w : FA S96x96) (b : FA S96) : FA S50000x96 :=
  combine (agg e (lin2 h w)) (lin2 h w) (selfCol e) (biasRow b)

/-- Per-graph means: the per-graph sums of the rows divided by max(count, 1). -/
def pool (h : FA S50000x96) (batch : IA S50000) : FA S128x96 :=
  Host.divf
    (Host.scatterAdd scatter_S128x96_S50000x1_S50000x96_1_0_0_1
      (broadcastInDim S128x96 ![] bcast_S_S128x96 (constant (F := Ideal) S_ .f32 0x00000000#32))
      (broadcastInDim S50000x1 ![0] bcast_S50000_S50000x1_0 batch) h)
    (broadcastInDim S128x96 ![0, 1] bcast_S128x1_S128x96_0_1
      (broadcastInDim S128x1 ![0] bcast_S128_S128x1_0
        (maximumf
          (Host.scatterAdd scatter_S128_S50000x1_S50000_n_0_0_1
            (broadcastInDim S128 ![] bcast_S_S128 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S128 ![] bcast_S_S128 (constant (F := Ideal) S_ .f32 0x3F800000#32)))))

/-- pooled · Wfᵀ + the bias row repeated down the rows. -/
def logits (p : FA S128x96) (wf : FA S10x96) (row : FA S1x10) : FA S128x10 :=
  addf (Host.dotGeneral dot_S128x96_S96x10_S128x10_1_0_0_1_n_n none p (transpose S96x10 [1, 0] wf transposes_S10x96_S96x10_1_0))
    (broadcastInDim S128x10 ![0, 1] bcast_S1x10_S128x10_0_1 row)

/-- Each row's maximum (never below −∞), repeated across the row. -/
def rowMax (l : FA S128x10) : FA S128x10 :=
  broadcastInDim S128x10 ![0, 1] bcast_S128x1_S128x10_0_1
    (broadcastInDim S128x1 ![0] bcast_S128_S128x1_0
      (maximumf (broadcastInDim S128 ![] bcast_S_S128 (constant (F := Ideal) S_ .f32 0xFF800000#32))
        (Host.reduce FloatOps.maximumf l (constant (F := Ideal) S_ .f32 0xFF800000#32) reducesTo_S128x10_S128_d1 h_S_)))

/-- The logarithm of the softmax along each row: s − log Σ exp s with s = l − rowmax l. -/
def logSoftmax (l : FA S128x10) : FA S128x10 :=
  subf (subf l (rowMax l))
    (broadcastInDim S128x10 ![0, 1] bcast_S128x1_S128x10_0_1
      (Host.log (broadcastInDim S128x1 ![0] bcast_S128_S128x1_0
        (Host.reduceAdd (Host.exp (subf l (rowMax l))) (constant (F := Ideal) S_ .f32 0x00000000#32) reducesTo_S128x10_S128_d1 h_S_))))

/-- The bias vector of the head as one row. -/
def headRow (bf : FA S10) : FA S1x10 := broadcastInDim S1x10 ![1] bcast_S10_S1x10_1 bf

/-- The whole network. -/
def result (x : FA S50000x128) (e : IA S2x800000) (batch : IA S50000) (w1 : FA S128x96) (b1 : FA S96)
    (w2 : FA S96x96) (b2 : FA S96) (wf : FA S10x96) (bf : FA S10) : FA S128x10 :=
  logSoftmax (logits (pool (layer2 e (layer1 e x w1 b1) w2 b2) batch) wf (headRow bf))

end Cert.Gcn.Spec

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«110277_j8134668059260_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«110277_j8134668059260_1_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.LibGroupSum.lean ====
/-
  Two facts about sums along an axis, for a program that works through a [B, ·] array R rows at a time and a program
  that works on the whole array at once, both on the extended reals.

  The grouping product. A [B, G, D] array x, flattened to [B, G·D], has entry (r, g·D + d) = x(r, g, d). Let m be the
  [G·D, D] matrix with m(j, d) = 1 when j mod D = d and 0 otherwise. Entry (p, d) of the product of the R rows of the
  flattened array with m is the sum over j of x'(p, j) · m(j, d); the terms with j mod D ≠ d are x'(p, j) · 0 = 0, the
  others are x'(p, j) · 1 = x'(p, j) (both hold for every extended real, the infinite ones included), and the indices j
  with j mod D = d are exactly g·D + d for g < G. So the product is the sum over g of x(row p, g, d): the R rows of
  the sum of x over its middle axis.

  The row sums kept as a column. If x' is R rows of x, the column [R, 1] of the row sums of x' is the same R rows of the
  column [B, 1] of the row sums of x.
-/
import proofs.«110277_j8134668059260_1_alg».proof.Proof.LibRowBlock

noncomputable section

open scoped BigOperators

namespace Idealize.ShloMosaic.RowBlock

open Idealize.ShloMosaic Idealize.ShloMosaic.ValueIdx

/-! ## The grouping product -/

/-- The position g·D + d of entry (g, d) in a flattened [G, D] array is below G·D. -/
theorem group_index_lt {G D : ℕ} (g : Fin G) (d : Fin D) : g.val * D + d.val < G * D :=
  calc g.val * D + d.val < g.val * D + D := Nat.add_lt_add_left d.isLt _
    _ = (g.val + 1) * D := (Nat.succ_mul _ _).symm
    _ ≤ G * D := Nat.mul_le_mul_right _ g.isLt

/-- A sum over j < G·D of a(j) · [j mod D = d] is the sum over g < G of a(g·D + d): a term with j mod D ≠ d is
    a(j) · 0 = 0, a term with j mod D = d is a(j) · 1 = a(j), and j ↦ (j div D, j mod D) pairs the positions below G·D
    with the pairs (g, d'). On the extended reals b · 1 = b and b · 0 = 0 hold for every b, the infinite ones included, so nothing is asked of a. -/
theorem sum_mul_indicator_mod {G D : ℕ} (a : Fin (G * D) → EReal) (d : Fin D) :
    ∑ j : Fin (G * D), a j * (if j.val % D = d.val then (1 : EReal) else 0)
      = ∑ g : Fin G, a ⟨g.val * D + d.val, group_index_lt g d⟩ := by
  have hterm : ∀ j : Fin (G * D), a j * (if j.val % D = d.val then (1 : EReal) else 0) = if j.val % D = d.val then a j else 0 := by
    intro j
    split
    · exact mul_one _
    · exact mul_zero _
  rw [Finset.sum_congr rfl fun j _ => hterm j, ← Equiv.sum_comp finProdFinEquiv, Fintype.sum_prod_type]
  refine Finset.sum_congr rfl fun g _ => ?_
  have hval : ∀ d' : Fin D, (finProdFinEquiv (g, d')).val = d'.val + D * g.val := fun _ => rfl
  have hinner : ∀ d' : Fin D,
      (if (finProdFinEquiv (g, d')).val % D = d.val then a (finProdFinEquiv (g, d')) else 0)
        = if d' = d then a (finProdFinEquiv (g, d')) else 0 := by
    intro d'
    have hm : (finProdFinEquiv (g, d')).val % D = d'.val := by
      rw [hval, Nat.add_mul_mod_self_left]; exact Nat.mod_eq_of_lt d'.isLt
    by_cases hd : d' = d
    · rw [if_pos hd, if_pos (by rw [hm, hd])]
    · rw [if_neg hd, if_neg (by rw [hm]; exact fun e => hd (Fin.ext e))]
  rw [Finset.sum_congr rfl fun d' _ => hinner d']
  refine (Fintype.sum_ite_eq' d fun d' => a (finProdFinEquiv (g, d'))).trans ?_
  exact congrArg a (Fin.ext (by rw [hval]; show d.val + D * g.val = g.val * D + d.val; rw [Nat.mul_comm, Nat.add_comm]))

/-- The matrix unit's product of the R rows of a flattened [B, G, D] array with the grouping matrix, into a zero
    accumulator, against the host's sum of the array over its middle axis from the scalar 0: entry (p, d) of either is
    the sum over g of x(row p, g, d). The R rows are given entry by entry: x'(p, g·D + d) = x(row p, g, d). -/
theorem IsRows.groupSum {B R G D N : ℕ} {t : ℕ} {h : t * R + R ≤ B} {φ' φg : FTy} (hN : N = G * D)
    {x' : FVec Ideal ⟨2, ![R, N]⟩ φ'} {x3 : FVec Ideal ⟨3, ![B, G, D]⟩ .f32}
    (hx : ∀ (p : Fin R) (g : Fin G) (d : Fin D) (j : Fin N), j.val = g.val * D + d.val →
      x' (ix2 p j) = x3 (ix3 (row t h p) g d))
    {gm : FVec Ideal ⟨2, ![N, D]⟩ φg}
    (hg : ∀ (j : Fin N) (d : Fin D), gm (ix2 j d) = if j.val % D = d.val then (1 : EReal) else 0)
    (hr : (⟨3, ![B, G, D]⟩ : Shape).ReducesTo [1] ⟨2, ![B, D]⟩) (h0 : 0 < (⟨0, ![]⟩ : Shape).numel) :
    IsRows t h (matmul (DotDims.plain R N D) none x' gm (constant ⟨2, ![R, D]⟩ .f32 0x00000000#32))
      (Host.reduceAdd (F := Ideal) x3 (constant (F := Ideal) ⟨0, ![]⟩ .f32 0x00000000#32) hr h0) := by
  subst hN
  intro p d
  have hR : (⟨3, ![B, G, D]⟩ : Shape).Reduces [1] ⟨2, ![B, D]⟩ := ⟨hr.1, Nat.two_pos, hr.2⟩
  have hlift : ∀ g : Fin G, hR.lift (ix2 (row t h p) d) g = ix3 (row t h p) g d := by
    intro g
    funext c
    apply Fin.ext
    match c with
    | ⟨0, _⟩ => rfl
    | ⟨1, _⟩ => rfl
    | ⟨2, _⟩ => rfl
  have hhost : Host.reduceAdd (F := Ideal) x3 (constant (F := Ideal) ⟨0, ![]⟩ .f32 0x00000000#32) hr h0 (ix2 (row t h p) d)
      = ∑ g : Fin G, x3 (ix3 (row t h p) g d) := by
    refine (hostReduceAdd_apply x3 _ hr h0 (ix2 (row t h p) d)).trans ?_
    refine (Ideal.hostReduceAdd_single hr hR x3 _ (ix2 (row t h p) d)).trans ?_
    show Ideal.ofBits .f32 0x00000000#32 + ∑ g : Fin G, x3 (hR.lift (ix2 (row t h p) d) g) = _
    rw [Ideal.ofBits_zero_f32, zero_add]
    exact Finset.sum_congr rfl fun g _ => congrArg x3 (hlift g)
  rw [hhost, PlainProduct.matmul_zero_at R (G * D) D x' gm p d,
    Finset.sum_congr rfl fun (j : Fin (G * D)) _ => congrArg (x' (ix2 p j) * ·) (hg j d)]
  refine (sum_mul_indicator_mod (fun j => x' (ix2 p j)) d).trans ?_
  exact Finset.sum_congr rfl fun g _ => hx p g d _ rfl

/-! ## Row sums kept as a column -/

section Column

variable {α : Type}

/-- An [a] array cast to a column [a, 1] reads, at (i, u), the operand at i, whatever the unit coordinate u. -/
theorem shapeCast_a_a1_apply {a : ℕ} (x : (⟨1, ![a]⟩ : Shape).Idx → α) (hc : (⟨1, ![a]⟩ : Shape).ShapeCasts ⟨2, ![a, 1]⟩)
    (i : Fin a) (u : Fin 1) : shapeCast ⟨2, ![a, 1]⟩ x hc (ix2 i u) = x (ix1 i) :=
  shapeCast_apply x hc _ _ (by
    have hu : u.val = 0 := by omega
    rw [Shape.rowMajor_val_two, Shape.rowMajor_val_one]
    show i.val = i.val * 1 + u.val
    rw [hu, Nat.mul_one, Nat.add_zero])

/-- An [a] array broadcast to a column [a, 1] along its own axis (the new axis is the unit one) reads, at (i, u), the
    operand at i. -/
theorem broadcastInDim_a_a1_apply {a : ℕ} (x : (⟨1, ![a]⟩ : Shape).Idx → α)
    (hb : (⟨1, ![a]⟩ : Shape).BroadcastsInDim ⟨2, ![a, 1]⟩ ![0]) (i : Fin a) (u : Fin 1) :
    broadcastInDim ⟨2, ![a, 1]⟩ ![0] hb x (ix2 i u) = x (ix1 i) := by
  refine broadcastInDim_apply ![0] hb x (ix2 i u) (ix1 i) fun ax => ?_
  match ax with
  | ⟨0, _⟩ =>
    show i.val = if a = 1 then 0 else i.val
    split
    · have := i.isLt; omega
    · rfl

end Column

/-- The column [R, 1] of the row sums of the R rows (the vector unit's sum along axis 1 from the zero pattern, cast to a
    column) against the R rows of the column [B, 1] of the row sums of the whole array (the host's sum over axis 1 from
    the scalar 0, broadcast to a column): entry (p, 0) of either is the sum over k of x(row p, k). -/
theorem IsRows.rowSumKeepdims {B R n : ℕ} {t : ℕ} {h : t * R + R ≤ B}
    {x' : FVec Ideal ⟨2, ![R, n]⟩ .f32} {x : FVec Ideal ⟨2, ![B, n]⟩ .f32} (hx : IsRows t h x' x)
    (hred : (⟨2, ![R, n]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hr : (⟨2, ![B, n]⟩ : Shape).ReducesTo [1] ⟨1, ![B]⟩) (h0 : 0 < (⟨0, ![]⟩ : Shape).numel)
    (hb : (⟨1, ![B]⟩ : Shape).BroadcastsInDim ⟨2, ![B, 1]⟩ ![0]) :
    IsRows t h (shapeCast ⟨2, ![R, 1]⟩ (multiReduction .add [1] ⟨1, ![R]⟩ x' 0x00000000#32 hred hφ hacc) hc)
      (broadcastInDim ⟨2, ![B, 1]⟩ ![0] hb
        (Host.reduceAdd (F := Ideal) x (constant (F := Ideal) ⟨0, ![]⟩ .f32 0x00000000#32) hr h0)) := by
  intro p u
  have hR : (⟨2, ![B, n]⟩ : Shape).Reduces [1] ⟨1, ![B]⟩ := ⟨hr.1, Nat.one_pos, hr.2⟩
  have e1 : ∀ k : Fin n, hR.lift (ix1 (row t h p)) k = ix2 (row t h p) k := by
    intro k
    funext c
    apply Fin.ext
    match c with
    | ⟨0, _⟩ => rfl
    | ⟨1, _⟩ => rfl
  have e2 : ∀ k : Fin n, hred.lift (ix1 p) k = ix2 p k := by
    intro k
    funext c
    apply Fin.ext
    match c with
    | ⟨0, _⟩ => rfl
    | ⟨1, _⟩ => rfl
  refine (shapeCast_a_a1_apply _ hc p u).trans ?_
  refine Eq.trans ?_ (broadcastInDim_a_a1_apply _ hb (row t h p) u).symm
  refine (Ideal.multiReduction_add_single x' 0x00000000#32 hred hφ hacc (ix1 p)).trans ?_
  refine Eq.symm ((hostReduceAdd_apply x _ hr h0 (ix1 (row t h p))).trans ?_)
  refine (Ideal.hostReduceAdd_single hr hR x _ (ix1 (row t h p))).trans ?_
  show Ideal.ofBits .f32 0x00000000#32 + ∑ k : Fin n, x (hR.lift (ix1 (row t h p)) k) = ∑ k : Fin n, x' (hred.lift (ix1 p) k)
  rw [Ideal.ofBits_zero_f32, zero_add]
  exact Finset.sum_congr rfl fun k _ => by rw [e1 k, e2 k]; exact (hx p k).symm

end Idealize.ShloMosaic.RowBlock

end
-- ==== Proof.LibRowCast.lean ====
/-
  A vector of n entries as a one-row matrix, two spellings: the cast of the vector to the shape [1, n], and the
  broadcast of the vector along axis 1 into that shape. Both read the vector's entry q at (0, q).
-/
import Idealize.ShloMosaic.Lib.Pipeline.Value
import Idealize.ShloMosaic.Lib.ValueIdx

namespace Idealize.ShloMosaic.RowCast

open Idealize.ShloMosaic Idealize.ShloMosaic.ValueIdx

/-- The cast of a vector to one row is its broadcast along the row's axis. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have hi : i = ix2 (0 : Fin 1) (i 1 : Fin n) := by
    funext a
    match a with
    | ⟨0, _⟩ => exact Fin.ext (Nat.lt_one_iff.mp (i 0).isLt)
    | ⟨1, _⟩ => rfl
  rw [hi]
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![1] hd x (ix2 (0 : Fin 1) (i 1 : Fin n)) (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast
-- ==== Proof.HostStages.lean ====
/-
  The host operations of the five-region program, stretch by stretch, read at the buffers the regions and the later
  stretches consume, from ANY contents W of the buffers when the stretch starts. Each value is a stage of the
  specification applied to W's contents of the buffers the stretch reads: the edge list's two rows, the degree
  normalisation d, the edge weights, d² as a column, the bias vectors as rows (before the first region); the
  aggregation of the gathered rows (between the regions of a layer); the per-graph means and the head's bias row
  (before the last region). A reshape of a vector to a column or to a row is the broadcast along the new unit axis.
  Also: the buffers a stretch does not write keep their contents.
-/
import proofs.«110277_j8134668059260_1_alg».proof.Proof.Gen.KernelIdeal.Launch
import proofs.«110277_j8134668059260_1_alg».proof.Proof.Spec
import proofs.«110277_j8134668059260_1_alg».proof.Proof.LibGroupSum
import proofs.«110277_j8134668059260_1_alg».proof.Proof.LibRowCast
import Idealize.ShloMosaic.Lib.StableHlo.Run

set_option maxRecDepth 16384

noncomputable section

namespace Cert.Gcn.HostStages

open Cert.KernelIdeal Cert.KernelIdeal.Gen Idealize.ShloMosaic Idealize.ShloMosaic.TcCoe Idealize.SL.Sem
open Idealize.ShloMosaic.StableHlo Idealize.ShloMosaic.ValueIdx

/-- A vector cast to a column is its broadcast along the new unit axis. -/
theorem col_cast_eq_bcast {α : Type} {a : ℕ} (v : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨r, z, rfl⟩ : ∃ (r : Fin a) (z : Fin 1), j = ix2 r z := ⟨j 0, j 1, eq_ix2 j⟩
  rw [Idealize.ShloMosaic.RowBlock.shapeCast_a_a1_apply v hc r z, Idealize.ShloMosaic.RowBlock.broadcastInDim_a_a1_apply v hb r z]

variable (W : Valuation τ sig (Elt Ideal))

/-! ## Before the first region -/

theorem stage0_src : after hostOps0 W (Proc.devRef .tc main_v1) = Spec.src (W (Proc.devRef .tc main_arg1)) := by
  after_results_simp
  rfl

theorem stage0_dst : after hostOps0 W (Proc.devRef .tc main_v3) = Spec.dst (W (Proc.devRef .tc main_arg1)) := by
  after_results_simp
  rfl

theorem stage0_norm : after hostOps0 W (Proc.devRef .tc main_v26) = Spec.norm (W (Proc.devRef .tc main_arg1)) := by
  after_results_simp
  rfl

theorem stage0_selfCol : after hostOps0 W (Proc.devRef .tc main_v28) = Spec.selfCol (W (Proc.devRef .tc main_arg1)) := by
  after_results_simp
  exact col_cast_eq_bcast (a := 50000) _ _ _

theorem stage0_bias1 : after hostOps0 W (Proc.devRef .tc main_v29) = Spec.biasRow (W (Proc.devRef .tc main_arg4)) := by
  after_results_simp
  exact Idealize.ShloMosaic.RowCast.shapeCast_row_eq_broadcastInDim (n := 96) _ _ _

theorem stage0_bias2 : after hostOps0 W (Proc.devRef .tc main_v30) = Spec.biasRow (W (Proc.devRef .tc main_arg6)) := by
  after_results_simp
  exact Idealize.ShloMosaic.RowCast.shapeCast_row_eq_broadcastInDim (n := 96) _ _ _

/-! ## Between the regions of a layer -/

theorem stage1_agg : after hostOps1 W (Proc.devRef .tc main_v44)
    = Spec.aggOf (W (Proc.devRef .tc main_v26)) (W (Proc.devRef .tc main_v1)) (W (Proc.devRef .tc main_v3)) (W (Proc.devRef .tc main_v31)) := by
  after_results_simp
  rfl

theorem stage3_agg : after hostOps3 W (Proc.devRef .tc main_v59)
    = Spec.aggOf (W (Proc.devRef .tc main_v26)) (W (Proc.devRef .tc main_v1)) (W (Proc.devRef .tc main_v3)) (W (Proc.devRef .tc main_v46)) := by
  after_results_simp
  rfl

/-! ## Before the last region -/

theorem stage4_pool : after hostOps4 W (Proc.devRef .tc main_v72)
    = Spec.pool (W (Proc.devRef .tc main_v60)) (W (Proc.devRef .tc main_arg2)) := by
  after_results_simp
  rfl

theorem stage4_headRow : after hostOps4 W (Proc.devRef .tc main_v73) = Spec.headRow (W (Proc.devRef .tc main_arg8)) := by
  after_results_simp
  exact Idealize.ShloMosaic.RowCast.shapeCast_row_eq_broadcastInDim (n := 10) _ _ _

end Cert.Gcn.HostStages

end
-- ==== Proof.KernelValue.lean ====
/-
  What the five-region program leaves in its result buffer, as the specification's network of the launch contents of
  the nine arguments. The buffer contents are followed boundary by boundary: a host stretch computes its stages from
  the contents it starts from and keeps every buffer it does not write; a region leaves in its output array one
  whole-array function of its input arrays (the region lemmas, taken here as hypotheses stated for ANY entry
  contents) and keeps every other buffer. Composing the stages in program order gives
  log_softmax(pool(layer2(layer1 x)) · Wfᵀ + bf).
-/
import proofs.«110277_j8134668059260_1_alg».proof.Proof.Gen.KernelIdeal.Frame
import proofs.«110277_j8134668059260_1_alg».proof.Proof.HostStages

set_option maxRecDepth 16384

noncomputable section

namespace Cert.Gcn.KernelValue

open Cert.KernelIdeal Cert.KernelIdeal.Gen Idealize.ShloMosaic Idealize.ShloMosaic.TcCoe Idealize.SL.Sem
open Idealize.ShloMosaic.StableHlo Cert.Gcn.HostStages
open Idealize.ShloMosaic.Pipeline (Dat)

/-- The contents of the TensorCore's buffers when a region is entered. -/
abbrev Entry : Type := (c : Dev nD) → (b : Ref sig .tc) → Buf (Elt Ideal) ((c : Thread nD τ).loc b)

/-- A buffer that no operation of a stretch writes keeps its contents through the stretch. -/
macro "stretch_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Keeps

variable (W : Valuation τ sig (Elt Ideal))

theorem keep0_arg0 : after hostOps0 W (Proc.devRef .tc main_arg0) = W (Proc.devRef .tc main_arg0) := by stretch_keeps hostOps0
theorem keep0_arg3 : after hostOps0 W (Proc.devRef .tc main_arg3) = W (Proc.devRef .tc main_arg3) := by stretch_keeps hostOps0
theorem keep0_arg5 : after hostOps0 W (Proc.devRef .tc main_arg5) = W (Proc.devRef .tc main_arg5) := by stretch_keeps hostOps0

theorem keep1_v31 : after hostOps1 W (Proc.devRef .tc main_v31) = W (Proc.devRef .tc main_v31) := by stretch_keeps hostOps1
theorem keep1_v28 : after hostOps1 W (Proc.devRef .tc main_v28) = W (Proc.devRef .tc main_v28) := by stretch_keeps hostOps1
theorem keep1_v29 : after hostOps1 W (Proc.devRef .tc main_v29) = W (Proc.devRef .tc main_v29) := by stretch_keeps hostOps1
theorem keep1_v30 : after hostOps1 W (Proc.devRef .tc main_v30) = W (Proc.devRef .tc main_v30) := by stretch_keeps hostOps1
theorem keep1_v26 : after hostOps1 W (Proc.devRef .tc main_v26) = W (Proc.devRef .tc main_v26) := by stretch_keeps hostOps1
theorem keep1_v1 : after hostOps1 W (Proc.devRef .tc main_v1) = W (Proc.devRef .tc main_v1) := by stretch_keeps hostOps1
theorem keep1_v3 : after hostOps1 W (Proc.devRef .tc main_v3) = W (Proc.devRef .tc main_v3) := by stretch_keeps hostOps1
theorem keep1_arg5 : after hostOps1 W (Proc.devRef .tc main_arg5) = W (Proc.devRef .tc main_arg5) := by stretch_keeps hostOps1

theorem keep3_v46 : after hostOps3 W (Proc.devRef .tc main_v46) = W (Proc.devRef .tc main_v46) := by stretch_keeps hostOps3
theorem keep3_v28 : after hostOps3 W (Proc.devRef .tc main_v28) = W (Proc.devRef .tc main_v28) := by stretch_keeps hostOps3
theorem keep3_v30 : after hostOps3 W (Proc.devRef .tc main_v30) = W (Proc.devRef .tc main_v30) := by stretch_keeps hostOps3

theorem keep4_arg2 : after hostOps4 W (Proc.devRef .tc main_arg2) = W (Proc.devRef .tc main_arg2) := by stretch_keeps hostOps4
theorem keep4_arg8 : after hostOps4 W (Proc.devRef .tc main_arg8) = W (Proc.devRef .tc main_arg8) := by stretch_keeps hostOps4

end Keeps

section Chain

variable (m : (ℓ : Loc nD τ sig) → Buf (Elt Ideal) ℓ) (ρ : Dev nD → PrngReg) (c : Dev nD)

/-! ## Before the first region (contents W1) -/

theorem at1_src : W1 m ρ c (Proc.devRef .tc main_v1) = Spec.src (m ((c : Thread nD τ).loc main_arg1)) :=
  stage0_src (W0 m ρ c)
theorem at1_dst : W1 m ρ c (Proc.devRef .tc main_v3) = Spec.dst (m ((c : Thread nD τ).loc main_arg1)) :=
  stage0_dst (W0 m ρ c)
theorem at1_norm : W1 m ρ c (Proc.devRef .tc main_v26) = Spec.norm (m ((c : Thread nD τ).loc main_arg1)) :=
  stage0_norm (W0 m ρ c)
theorem at1_selfCol : W1 m ρ c (Proc.devRef .tc main_v28) = Spec.selfCol (m ((c : Thread nD τ).loc main_arg1)) :=
  stage0_selfCol (W0 m ρ c)
theorem at1_bias1 : W1 m ρ c (Proc.devRef .tc main_v29) = Spec.biasRow (m ((c : Thread nD τ).loc main_arg4)) :=
  stage0_bias1 (W0 m ρ c)
theorem at1_bias2 : W1 m ρ c (Proc.devRef .tc main_v30) = Spec.biasRow (m ((c : Thread nD τ).loc main_arg6)) :=
  stage0_bias2 (W0 m ρ c)
theorem at1_arg0 : W1 m ρ c (Proc.devRef .tc main_arg0) = m ((c : Thread nD τ).loc main_arg0) := keep0_arg0 (W0 m ρ c)
theorem at1_arg3 : W1 m ρ c (Proc.devRef .tc main_arg3) = m ((c : Thread nD τ).loc main_arg3) := keep0_arg3 (W0 m ρ c)
theorem at1_arg5 : W1 m ρ c (Proc.devRef .tc main_arg5) = m ((c : Thread nD τ).loc main_arg5) := keep0_arg5 (W0 m ρ c)

/-! ## After the first product (contents W2): x · W1 in its buffer, the rest kept -/

theorem at2_src : W2 m ρ c (Proc.devRef .tc main_v1) = Spec.src (m ((c : Thread nD τ).loc main_arg1)) :=
  (W2_of_ne m ρ c main_v1 (by decide)).trans (at1_src m ρ c)
theorem at2_dst : W2 m ρ c (Proc.devRef .tc main_v3) = Spec.dst (m ((c : Thread nD τ).loc main_arg1)) :=
  (W2_of_ne m ρ c main_v3 (by decide)).trans (at1_dst m ρ c)
theorem at2_norm : W2 m ρ c (Proc.devRef .tc main_v26) = Spec.norm (m ((c : Thread nD τ).loc main_arg1)) :=
  (W2_of_ne m ρ c main_v26 (by decide)).trans (at1_norm m ρ c)
theorem at2_selfCol : W2 m ρ c (Proc.devRef .tc main_v28) = Spec.selfCol (m ((c : Thread nD τ).loc main_arg1)) :=
  (W2_of_ne m ρ c main_v28 (by decide)).trans (at1_selfCol m ρ c)
theorem at2_bias1 : W2 m ρ c (Proc.devRef .tc main_v29) = Spec.biasRow (m ((c : Thread nD τ).loc main_arg4)) :=
  (W2_of_ne m ρ c main_v29 (by decide)).trans (at1_bias1 m ρ c)
theorem at2_bias2 : W2 m ρ c (Proc.devRef .tc main_v30) = Spec.biasRow (m ((c : Thread nD τ).loc main_arg6)) :=
  (W2_of_ne m ρ c main_v30 (by decide)).trans (at1_bias2 m ρ c)
theorem at2_arg5 : W2 m ρ c (Proc.devRef .tc main_arg5) = m ((c : Thread nD τ).loc main_arg5) :=
  (W2_of_ne m ρ c main_arg5 (by decide)).trans (at1_arg5 m ρ c)

theorem at2_lin1
    (H0 : ∀ (V : Entry) (c : Dev nD), (dat0 (F := Ideal) V c).arrAt 2 cfg0.N = Spec.lin1 (V c main_arg0) (V c main_arg3)) :
    W2 m ρ c (Proc.devRef .tc main_v31)
      = Spec.lin1 (m ((c : Thread nD τ).loc main_arg0)) (m ((c : Thread nD τ).loc main_arg3)) :=
  (W2_arr m ρ c 2).trans ((H0 (V1 m ρ) c).trans (by
    rw [show V1 m ρ c main_arg0 = m ((c : Thread nD τ).loc main_arg0) from at1_arg0 m ρ c,
      show V1 m ρ c main_arg3 = m ((c : Thread nD τ).loc main_arg3) from at1_arg3 m ρ c]))

end Chain

section Chain2

variable (m : (ℓ : Loc nD τ sig) → Buf (Elt Ideal) ℓ) (ρ : Dev nD → PrngReg) (c : Dev nD)

/-! ## After the first aggregation (contents W3) -/

theorem at3_agg (H0 : ∀ (V : Entry) (c : Dev nD), (dat0 (F := Ideal) V c).arrAt 2 cfg0.N = Spec.lin1 (V c main_arg0) (V c main_arg3)) :
    W3 m ρ c (Proc.devRef .tc main_v44) = Spec.agg (m ((c : Thread nD τ).loc main_arg1)) (Spec.lin1 (m ((c : Thread nD τ).loc main_arg0)) (m ((c : Thread nD τ).loc main_arg3))) :=
  (stage1_agg (W2 m ρ c)).trans (by
    rw [at2_norm m ρ c, at2_src m ρ c, at2_dst m ρ c, at2_lin1 m ρ c H0]; rfl)
theorem at3_lin1 (H0 : ∀ (V : Entry) (c : Dev nD), (dat0 (F := Ideal) V c).arrAt 2 cfg0.N = Spec.lin1 (V c main_arg0) (V c main_arg3)) :
    W3 m ρ c (Proc.devRef .tc main_v31) = Spec.lin1 (m ((c : Thread nD τ).loc main_arg0)) (m ((c : Thread nD τ).loc main_arg3)) :=
  (keep1_v31 (W2 m ρ c)).trans (at2_lin1 m ρ c H0)
theorem at3_selfCol : W3 m ρ c (Proc.devRef .tc main_v28) = Spec.selfCol (m ((c : Thread nD τ).loc main_arg1)) :=
  (keep1_v28 (W2 m ρ c)).trans (at2_selfCol m ρ c)
theorem at3_bias1 : W3 m ρ c (Proc.devRef .tc main_v29) = Spec.biasRow (m ((c : Thread nD τ).loc main_arg4)) :=
  (keep1_v29 (W2 m ρ c)).trans (at2_bias1 m ρ c)
theorem at3_bias2 : W3 m ρ c (Proc.devRef .tc main_v30) = Spec.biasRow (m ((c : Thread nD τ).loc main_arg6)) :=
  (keep1_v30 (W2 m ρ c)).trans (at2_bias2 m ρ c)
theorem at3_norm : W3 m ρ c (Proc.devRef .tc main_v26) = Spec.norm (m ((c : Thread nD τ).loc main_arg1)) :=
  (keep1_v26 (W2 m ρ c)).trans (at2_norm m ρ c)
theorem at3_src : W3 m ρ c (Proc.devRef .tc main_v1) = Spec.src (m ((c : Thread nD τ).loc main_arg1)) :=
  (keep1_v1 (W2 m ρ c)).trans (at2_src m ρ c)
theorem at3_dst : W3 m ρ c (Proc.devRef .tc main_v3) = Spec.dst (m ((c : Thread nD τ).loc main_arg1)) :=
  (keep1_v3 (W2 m ρ c)).trans (at2_dst m ρ c)
theorem at3_arg5 : W3 m ρ c (Proc.devRef .tc main_arg5) = (m ((c : Thread nD τ).loc main_arg5)) :=
  (keep1_arg5 (W2 m ρ c)).trans (at2_arg5 m ρ c)

/-! ## After the first layer (contents W4) -/

theorem at4_layer1 (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29))) :
    W4 m ρ c (Proc.devRef .tc main_v45) = (Spec.layer1 (m ((c : Thread nD τ).loc main_arg1)) (m ((c : Thread nD τ).loc main_arg0)) (m ((c : Thread nD τ).loc main_arg3)) (m ((c : Thread nD τ).loc main_arg4))) :=
  (W4_arr m ρ c 4).trans ((H1 (V3 m ρ) c).trans (by
    rw [show V3 m ρ c main_v44 = _ from at3_agg m ρ c H0, show V3 m ρ c main_v31 = _ from at3_lin1 m ρ c H0,
      show V3 m ρ c main_v28 = _ from at3_selfCol m ρ c, show V3 m ρ c main_v29 = _ from at3_bias1 m ρ c]; rfl))
theorem at4_norm : W4 m ρ c (Proc.devRef .tc main_v26) = Spec.norm (m ((c : Thread nD τ).loc main_arg1)) :=
  (W4_of_ne m ρ c main_v26 (by decide)).trans (at3_norm m ρ c)
theorem at4_src : W4 m ρ c (Proc.devRef .tc main_v1) = Spec.src (m ((c : Thread nD τ).loc main_arg1)) :=
  (W4_of_ne m ρ c main_v1 (by decide)).trans (at3_src m ρ c)
theorem at4_dst : W4 m ρ c (Proc.devRef .tc main_v3) = Spec.dst (m ((c : Thread nD τ).loc main_arg1)) :=
  (W4_of_ne m ρ c main_v3 (by decide)).trans (at3_dst m ρ c)
theorem at4_bias2 : W4 m ρ c (Proc.devRef .tc main_v30) = Spec.biasRow (m ((c : Thread nD τ).loc main_arg6)) :=
  (W4_of_ne m ρ c main_v30 (by decide)).trans (at3_bias2 m ρ c)
theorem at4_arg5 : W4 m ρ c (Proc.devRef .tc main_arg5) = (m ((c : Thread nD τ).loc main_arg5)) :=
  (W4_of_ne m ρ c main_arg5 (by decide)).trans (at3_arg5 m ρ c)
/-- d² as a column is an input of the first layer's second region: the region leaves it as it found it. -/
theorem at4_selfCol : W4 m ρ c (Proc.devRef .tc main_v28) = Spec.selfCol (m ((c : Thread nD τ).loc main_arg1)) :=
  ((W4_arr m ρ c 2).trans (((dat1 (V3 m ρ) c).arrAt_in 2 rfl _).trans (A_eq1 (V3 m ρ) c 2))).trans (at3_selfCol m ρ c)

/-! ## After the second product (contents W5) -/

theorem at5_lin2 (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5)) :
    W5 m ρ c (Proc.devRef .tc main_v46) = Spec.lin2 (Spec.layer1 (m ((c : Thread nD τ).loc main_arg1)) (m ((c : Thread nD τ).loc main_arg0)) (m ((c : Thread nD τ).loc main_arg3)) (m ((c : Thread nD τ).loc main_arg4))) (m ((c : Thread nD τ).loc main_arg5)) :=
  (W5_arr m ρ c 2).trans ((H2 (V4 m ρ) c).trans (by
    rw [show V4 m ρ c main_v45 = _ from at4_layer1 m ρ c H0 H1, show V4 m ρ c main_arg5 = _ from at4_arg5 m ρ c]))
theorem at5_norm : W5 m ρ c (Proc.devRef .tc main_v26) = Spec.norm (m ((c : Thread nD τ).loc main_arg1)) :=
  (W5_of_ne m ρ c main_v26 (by decide)).trans (at4_norm m ρ c)
theorem at5_src : W5 m ρ c (Proc.devRef .tc main_v1) = Spec.src (m ((c : Thread nD τ).loc main_arg1)) :=
  (W5_of_ne m ρ c main_v1 (by decide)).trans (at4_src m ρ c)
theorem at5_dst : W5 m ρ c (Proc.devRef .tc main_v3) = Spec.dst (m ((c : Thread nD τ).loc main_arg1)) :=
  (W5_of_ne m ρ c main_v3 (by decide)).trans (at4_dst m ρ c)
theorem at5_selfCol : W5 m ρ c (Proc.devRef .tc main_v28) = Spec.selfCol (m ((c : Thread nD τ).loc main_arg1)) :=
  (W5_of_ne m ρ c main_v28 (by decide)).trans (at4_selfCol m ρ c)
theorem at5_bias2 : W5 m ρ c (Proc.devRef .tc main_v30) = Spec.biasRow (m ((c : Thread nD τ).loc main_arg6)) :=
  (W5_of_ne m ρ c main_v30 (by decide)).trans (at4_bias2 m ρ c)

/-! ## After the second aggregation (contents W6) -/

theorem at6_agg (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5)) :
    W6 m ρ c (Proc.devRef .tc main_v59) = Spec.agg (m ((c : Thread nD τ).loc main_arg1)) (Spec.lin2 (Spec.layer1 (m ((c : Thread nD τ).loc main_arg1)) (m ((c : Thread nD τ).loc main_arg0)) (m ((c : Thread nD τ).loc main_arg3)) (m ((c : Thread nD τ).loc main_arg4))) (m ((c : Thread nD τ).loc main_arg5))) :=
  (stage3_agg (W5 m ρ c)).trans (by
    rw [at5_norm m ρ c, at5_src m ρ c, at5_dst m ρ c, at5_lin2 m ρ c H0 H1 H2]; rfl)
theorem at6_lin2 (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5)) :
    W6 m ρ c (Proc.devRef .tc main_v46) = Spec.lin2 (Spec.layer1 (m ((c : Thread nD τ).loc main_arg1)) (m ((c : Thread nD τ).loc main_arg0)) (m ((c : Thread nD τ).loc main_arg3)) (m ((c : Thread nD τ).loc main_arg4))) (m ((c : Thread nD τ).loc main_arg5)) :=
  (keep3_v46 (W5 m ρ c)).trans (at5_lin2 m ρ c H0 H1 H2)
theorem at6_selfCol : W6 m ρ c (Proc.devRef .tc main_v28) = Spec.selfCol (m ((c : Thread nD τ).loc main_arg1)) :=
  (keep3_v28 (W5 m ρ c)).trans (at5_selfCol m ρ c)
theorem at6_bias2 : W6 m ρ c (Proc.devRef .tc main_v30) = Spec.biasRow (m ((c : Thread nD τ).loc main_arg6)) :=
  (keep3_v30 (W5 m ρ c)).trans (at5_bias2 m ρ c)

/-! ## After the second layer (contents W7) -/

theorem at7_layer2 (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5))
    (H3 : ∀ (V : Entry) (c : Dev nD), (dat3 (F := Ideal) V c).arrAt 4 cfg3.N
      = Spec.combine (V c main_v59) (V c main_v46) (V c main_v28) (V c main_v30)) :
    W7 m ρ c (Proc.devRef .tc main_v60) = (Spec.layer2 (m ((c : Thread nD τ).loc main_arg1)) (Spec.layer1 (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) :=
  (W7_arr m ρ c 4).trans ((H3 (V6 m ρ) c).trans (by
    rw [show V6 m ρ c main_v59 = _ from at6_agg m ρ c H0 H1 H2, show V6 m ρ c main_v46 = _ from at6_lin2 m ρ c H0 H1 H2,
      show V6 m ρ c main_v28 = _ from at6_selfCol m ρ c, show V6 m ρ c main_v30 = _ from at6_bias2 m ρ c]; rfl))
/-- The graph numbers, the head's weights and its bias are arguments: nothing writes them, so their contents at any
    boundary are those at the end, which are the launch contents. -/
theorem at7_arg2 : W7 m ρ c (Proc.devRef .tc main_arg2) = (m ((c : Thread nD τ).loc main_arg2)) :=
  (keep4_arg2 (W7 m ρ c)).symm.trans ((W9_of_ne m ρ c main_arg2 (by decide)).symm.trans (W9_main_arg2 m ρ c))
theorem at7_arg8 : W7 m ρ c (Proc.devRef .tc main_arg8) = (m ((c : Thread nD τ).loc main_arg8)) :=
  (keep4_arg8 (W7 m ρ c)).symm.trans ((W9_of_ne m ρ c main_arg8 (by decide)).symm.trans (W9_main_arg8 m ρ c))
theorem at8_arg7 : W8 m ρ c (Proc.devRef .tc main_arg7) = (m ((c : Thread nD τ).loc main_arg7)) :=
  ((W9_arr m ρ c 1).trans (((dat4 (V8 m ρ) c).arrAt_in 1 rfl _).trans (A_eq4 (V8 m ρ) c 1))).symm.trans (W9_main_arg7 m ρ c)

/-! ## Before the last region (contents W8), and the result -/

theorem at8_pool (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5))
    (H3 : ∀ (V : Entry) (c : Dev nD), (dat3 (F := Ideal) V c).arrAt 4 cfg3.N
      = Spec.combine (V c main_v59) (V c main_v46) (V c main_v28) (V c main_v30)) :
    W8 m ρ c (Proc.devRef .tc main_v72) = Spec.pool (Spec.layer2 (m ((c : Thread nD τ).loc main_arg1)) (Spec.layer1 (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg2)) :=
  (stage4_pool (W7 m ρ c)).trans (by rw [at7_layer2 m ρ c H0 H1 H2 H3, at7_arg2 m ρ c])
theorem at8_headRow : W8 m ρ c (Proc.devRef .tc main_v73) = Spec.headRow (m ((c : Thread nD τ).loc main_arg8)) :=
  (stage4_headRow (W7 m ρ c)).trans (by rw [at7_arg8 m ρ c])

/-- THE RESULT: the last boundary's contents of the result buffer are the specification's network of the launch
    contents of the nine arguments. -/
theorem result_eq (H0 : ∀ (V : Entry) (c : Dev nD), (dat0 (F := Ideal) V c).arrAt 2 cfg0.N = Spec.lin1 (V c main_arg0) (V c main_arg3))
    (H1 : ∀ (V : Entry) (c : Dev nD), (dat1 (F := Ideal) V c).arrAt 4 cfg1.N
      = Spec.relu (Spec.combine (V c main_v44) (V c main_v31) (V c main_v28) (V c main_v29)))
    (H2 : ∀ (V : Entry) (c : Dev nD), (dat2 (F := Ideal) V c).arrAt 2 cfg2.N = Spec.lin2 (V c main_v45) (V c main_arg5))
    (H3 : ∀ (V : Entry) (c : Dev nD), (dat3 (F := Ideal) V c).arrAt 4 cfg3.N
      = Spec.combine (V c main_v59) (V c main_v46) (V c main_v28) (V c main_v30))
    (H4 : ∀ (V : Entry) (c : Dev nD), (dat4 (F := Ideal) V c).arrAt 3 cfg4.N
      = Spec.logSoftmax (Spec.logits (V c main_v72) (V c main_arg7) (V c main_v73))) :
    W9 m ρ c (Proc.devRef .tc main_v74)
      = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W9_arr m ρ c 3).trans ((H4 (V8 m ρ) c).trans (by
    rw [show V8 m ρ c main_v72 = _ from at8_pool m ρ c H0 H1 H2 H3, show V8 m ρ c main_arg7 = _ from at8_arg7 m ρ c,
      show V8 m ρ c main_v73 = _ from at8_headRow m ρ c]; rfl))

end Chain2

end Cert.Gcn.KernelValue

end
-- ==== Proof.RefTerm.lean ====
/-
  The reference program's result, read back by its run as one composed term of the nine argument arrays, is the
  network of the specification: the two are the same host operations in the same order, the specification only
  names the stages (degrees, edge weights, aggregation, the two layers, the pooling, the head).
-/
import proofs.«110277_j8134668059260_1_alg».proof.Proof.Gen.ReferenceIdeal.Run
import proofs.«110277_j8134668059260_1_alg».proof.Proof.Spec

noncomputable section

namespace Cert.Gcn.RefTerm

open Cert.ReferenceIdeal Cert.ReferenceIdeal.Gen Idealize.ShloMosaic Idealize.ShloMosaic.TcCoe Idealize.SL.Sem

set_option maxRecDepth 65536 in
/-- The run's term for the result buffer is the specification's network of the launch contents of the arguments. -/
theorem res_eq_spec (m : (ℓ : Loc nD τ sig) → Buf (Elt Ideal) ℓ) (c : Dev nD) :
    Cert.ReferenceIdeal.Value.res_main_v89 (F := Ideal) m c
      = Cert.Gcn.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v89 Cert.Gcn.Spec.result Cert.Gcn.Spec.logSoftmax Cert.Gcn.Spec.rowMax
    Cert.Gcn.Spec.logits Cert.Gcn.Spec.headRow Cert.Gcn.Spec.pool Cert.Gcn.Spec.layer2 Cert.Gcn.Spec.layer1
    Cert.Gcn.Spec.combine Cert.Gcn.Spec.relu Cert.Gcn.Spec.lin1 Cert.Gcn.Spec.lin2 Cert.Gcn.Spec.biasRow
    Cert.Gcn.Spec.selfCol Cert.Gcn.Spec.agg Cert.Gcn.Spec.aggOf Cert.Gcn.Spec.norm Cert.Gcn.Spec.dinv Cert.Gcn.Spec.wrapped
    Cert.Gcn.Spec.asCol Cert.Gcn.Spec.src Cert.Gcn.Spec.dst
  rfl

end Cert.Gcn.RefTerm

end
-- ==== Proof.LinearRegions.lean ====
/-
  The two dense layers of the graph convolution network. Each is a product of a [50000, K] array of node features
  with a [K, 96] weight matrix, computed 5000 rows at a time over ten steps: step t loads rows 5000·t … 5000·t + 4999
  of the features and the whole weight matrix, narrows both to bf16 (no change on the extended reals), multiplies them
  into a zero accumulator and stores the [5000, 96] result as rows 5000·t … 5000·t + 4999 of the output. Rows of a
  product depend only on the same rows of the left factor, so the ten results are the ten row groups of the whole
  product, and together they fill the output: after the tenth step the output array IS the plain product of the two
  arrays the layer was given.
-/
import proofs.«110277_j8134668059260_1_alg».proof.Proof.Gen.KernelIdeal.Frame
import proofs.«110277_j8134668059260_1_alg».proof.Proof.LibRowBlock
import proofs.«110277_j8134668059260_1_alg».proof.Proof.Spec
import Idealize.ShloMosaic.Lib.Pipeline.Value

noncomputable section

namespace Cert.Gcn.Linear

open Cert.KernelIdeal Cert.KernelIdeal.Gen Idealize.ShloMosaic Idealize.ShloMosaic.TcCoe Idealize.SL.Sem
open Idealize.ShloMosaic.Pipeline (Dat)
open Idealize.ShloMosaic.RowBlock Idealize.ShloMosaic.ValueIdx

-- The buffer contents when a layer is entered: a parameter throughout.
variable (V : (c : Dev nD) → (b : Ref sig .tc) → Buf (Elt Ideal) ((c : Thread nD τ).loc b))

theorem zeroOffsets : (![0, 0] : Fin 2 → Nat) = fun _ => 0 := funext fun a => by fin_cases a <;> rfl

/-! ## One step's arithmetic: 5000 rows of the product -/

/-- First layer: from 5000 rows of the features and the weight matrix, the step's result is the same 5000 rows of the
    whole product. -/
theorem rowsProduct1 {t : ℕ} {h : t * 5000 + 5000 ≤ 50000}
    (x' : Vec Ideal S5000x128 .f32) (w' : Vec Ideal S128x96 .f32)
    (x : FVec Ideal S50000x128 .f32) (w : FVec Ideal S128x96 .f32)
    (hx : IsRows t h x' x) (hw : ∀ (k : Fin 128) (q : Fin 96), w' (ix2 k q) = w (ix2 k q)) :
    IsRows t h (k0_pay1 x' w') (Host.dotGeneral (F := Ideal) (DotDims.plain 50000 128 96) none x w) := by
  unfold k0_pay1
  exact IsRows.dot (IsRows.truncf _ hx) hw

/-- Second layer: the same with 96 feature columns (the load's cast to its own shape changes nothing). -/
theorem rowsProduct2 {t : ℕ} {h : t * 5000 + 5000 ≤ 50000}
    (x' : Vec Ideal S5000x96 .f32) (w' : Vec Ideal S96x96 .f32)
    (x : FVec Ideal S50000x96 .f32) (w : FVec Ideal S96x96 .f32)
    (hx : IsRows t h x' x) (hw : ∀ (k : Fin 96) (q : Fin 96), w' (ix2 k q) = w (ix2 k q)) :
    IsRows t h (k2_pay1 x' w') (Host.dotGeneral (F := Ideal) (DotDims.plain 50000 96 96) none x w) := by
  unfold k2_pay1
  exact IsRows.dot (IsRows.truncf _ (IsRows.castSelf _ hx)) hw

/-! ## First layer: where each step's blocks sit -/

/-- The block index of each window at step t, decided over the ten steps: the features' and the output's blocks move
    down one row group per step, the weight matrix stays. -/
theorem blockIndex1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every step's row group lies inside the 50000 rows. -/
theorem stepBound1 (t : Fin cfg0.N) : t.val * 5000 + 5000 ≤ 50000 := by
  have ht : t.val < 10 := lt_of_lt_of_eq t.isLt N_0
  omega

/-- The features' block at step t is rows 5000·t … 5000·t + 4999 of the features. -/
theorem featureRows1 (c : Dev nD) (t : Fin cfg0.N) :
    IsRows t.val (stepBound1 t) (iblk0 V c 0 t : Vec Ideal S5000x128 .f32) (V c main_arg0 : FVec Ideal S50000x128 .f32) := by
  intro p q
  obtain ⟨e0, e1, -⟩ := blockIndex1 t
  unfold iblk0
  rw [View.read_apply]
  show (V c main_arg0 : FVec Ideal S50000x128 .f32) _ = (V c main_arg0 : FVec Ideal S50000x128 .f32) _
  refine congrArg (V c main_arg0 : FVec Ideal S50000x128 .f32) ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * q.val = q.val; rw [e1]; omega

/-- The weights' block at every step is the whole weight matrix. -/
theorem weightBlock1 (c : Dev nD) (t : Fin cfg0.N) (k : Fin 128) (q : Fin 96) :
    (iblk0 V c 1 t : Vec Ideal S128x96 .f32) (ix2 k q) = (V c main_arg3 : FVec Ideal S128x96 .f32) (ix2 k q) := by
  obtain ⟨-, -, e2, e3, -⟩ := blockIndex1 t
  unfold iblk0
  rw [View.read_apply]
  show (V c main_arg3 : FVec Ideal S128x96 .f32) _ = (V c main_arg3 : FVec Ideal S128x96 .f32) _
  refine congrArg (V c main_arg3 : FVec Ideal S128x96 .f32) ?_
  funext a
  apply Fin.ext
  match a with
  | ⟨0, _⟩ => show win0_1.index t (0 : Fin 2) * 128 + 1 * k.val = k.val; rw [e2]; omega
  | ⟨1, _⟩ => show win0_1.index t (1 : Fin 2) * 96 + 1 * q.val = q.val; rw [e3]; omega

/-! ## First layer: from the ten row groups to the array -/

/-- What step t writes back is rows 5000·t … 5000·t + 4999 of the product of the two arrays the layer found. -/
theorem written1 (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 50000 128 96) none
        (V c main_arg0 : FVec Ideal S50000x128 .f32) (V c main_arg3 : FVec Ideal S128x96 .f32)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x96) zeroOffsets]
  have hp := rowsProduct1 (iblk0 V c 0 t) (iblk0 V c 1 t) (V c main_arg0) (V c main_arg3)
    (featureRows1 V c t) (weightBlock1 V c t)
  obtain ⟨-, -, -, -, e4, e5⟩ := blockIndex1 t
  funext j
  obtain ⟨p, q, rfl⟩ : ∃ (p : Fin 5000) (q : Fin 96), j = ix2 p q := ⟨j 0, j 1, eq_ix2 j⟩
  refine (hp p q).trans ?_
  show _ = Host.dotGeneral (F := Ideal) (φ₁ := .f32) (φ₂ := .f32) (DotDims.plain 50000 128 96) none
        (V c main_arg0 : FVec Ideal S50000x128 .f32) (V c main_arg3 : FVec Ideal S128x96 .f32) (((cfg0.win 2).blk t).view.emb (ix2 p q))
  refine congrArg _ ?_
  funext a
  apply Fin.ext
  match a with
  | ⟨0, _⟩ => show t.val * 5000 + p.val = win0_2.index t (0 : Fin 2) * 5000 + 1 * p.val; rw [e4]; omega
  | ⟨1, _⟩ => show q.val = win0_2.index t (1 : Fin 2) * 96 + 1 * q.val; rw [e5]; omega

/-- An index of the output is in step t's block iff each coordinate is in the block's range on its axis. -/
theorem inBlock1 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v31).slice (win0_2.rect t)).set ↔ _
  rw [View.set_slice_whole, Rect.mem_set_unit]
  exact Iff.rfl

/-- Row r of the output is written by step r / 5000: the ten blocks fill the array. -/
theorem filled1 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hN : grid0.N = 10 := N_0
  let t : Fin cfg0.N := ⟨(i 0).val / 5000, by show (i 0).val / 5000 < grid0.N; rw [hN]; omega⟩
  obtain ⟨-, -, -, -, e4, e5⟩ := blockIndex1 t
  have e4' : win0_2.index t (0 : Fin 2) = (i 0).val / 5000 := e4
  refine ⟨t, flush0_2 t, ?_⟩
  rw [inBlock1]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 96 ≤ (i 1).val ∧ (i 1).val < win0_2.index t (1 : Fin 2) * 96 + 96; rw [e5]; omega

/-- THE FIRST LAYER: after its ten steps the output array is the plain product of the features and the weights as the
    layer found them. -/
theorem lin1_product (c : Dev nD) :
    (Cert.KernelIdeal.Gen.dat0 (F := Ideal) V c).arrAt 2 cfg0.N
      = Host.dotGeneral (F := Ideal) (φ₁ := .f32) (φ₂ := .f32) (DotDims.plain 50000 128 96) none
          (V c main_arg0 : FVec Ideal S50000x128 .f32) (V c main_arg3 : FVec Ideal S128x96 .f32) :=
  (dat0 (F := Ideal) V c).arrAt_eq_of_cover 2 _ (fun t _ => written1 V c t) filled1

/-! ## Second layer: where each step's blocks sit -/

/-- The block index of each window at step t, decided over the ten steps: as in the first layer. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every step's row group lies inside the 50000 rows. -/
theorem stepBound2 (t : Fin cfg2.N) : t.val * 5000 + 5000 ≤ 50000 := by
  have ht : t.val < 10 := lt_of_lt_of_eq t.isLt N_2
  omega

/-- The features' block at step t is rows 5000·t … 5000·t + 4999 of the features. -/
theorem featureRows2 (c : Dev nD) (t : Fin cfg2.N) :
    IsRows t.val (stepBound2 t) (iblk2 V c 0 t : Vec Ideal S5000x96 .f32) (V c main_v45 : FVec Ideal S50000x96 .f32) := by
  intro p q
  obtain ⟨e0, e1, -⟩ := blockIndex2 t
  unfold iblk2
  rw [View.read_apply]
  show (V c main_v45 : FVec Ideal S50000x96 .f32) _ = (V c main_v45 : FVec Ideal S50000x96 .f32) _
  refine congrArg (V c main_v45 : FVec Ideal S50000x96 .f32) ?_
  funext a
  apply Fin.ext
  match a with
  | ⟨0, _⟩ => show win2_0.index t (0 : Fin 2) * 5000 + 1 * p.val = t.val * 5000 + p.val; rw [e0]; omega
  | ⟨1, _⟩ => show win2_0.index t (1 : Fin 2) * 96 + 1 * q.val = q.val; rw [e1]; omega

/-- The weights' block at every step is the whole weight matrix. -/
theorem weightBlock2 (c : Dev nD) (t : Fin cfg2.N) (k : Fin 96) (q : Fin 96) :
    (iblk2 V c 1 t : Vec Ideal S96x96 .f32) (ix2 k q) = (V c main_arg5 : FVec Ideal S96x96 .f32) (ix2 k q) := by
  obtain ⟨-, -, e2, e3, -⟩ := blockIndex2 t
  unfold iblk2
  rw [View.read_apply]
  show (V c main_arg5 : FVec Ideal S96x96 .f32) _ = (V c main_arg5 : FVec Ideal S96x96 .f32) _
  refine congrArg (V c main_arg5 : FVec Ideal S96x96 .f32) ?_
  funext a
  apply Fin.ext
  match a with
  | ⟨0, _⟩ => show win2_1.index t (0 : Fin 2) * 96 + 1 * k.val = k.val; rw [e2]; omega
  | ⟨1, _⟩ => show win2_1.index t (1 : Fin 2) * 96 + 1 * q.val = q.val; rw [e3]; omega

/-! ## Second layer: from the ten row groups to the array -/

/-- What step t writes back is rows 5000·t … 5000·t + 4999 of the product of the two arrays the layer found. -/
theorem written2 (c : Dev nD) (t : Fin cfg2.N) :
    (dat2 (F := Ideal) V c).flushed 2 t = ((cfg2.win 2).blk t).view.read (Elt Ideal)
      (Host.dotGeneral (F := Ideal) (φ₁ := .f32) (φ₂ := .f32) (DotDims.plain 50000 96 96) none
        (V c main_v45 : FVec Ideal S50000x96 .f32) (V c main_arg5 : FVec Ideal S96x96 .f32)) := by
  show (cfg2.win 2).cut (grid2.coords t) ((dat2 V c).after 2 t) = _
  rw [after2_2]
  unfold out2_2
  rw [View.canon_unit_zero zeroOffsets]
  simp only [View.ld_unit_zero (S := S5000x96) zeroOffsets, View.ld_unit_zero (S := S96x96) zeroOffsets]
  have hp := rowsProduct2 (iblk2 V c 0 t) (iblk2 V c 1 t) (V c main_v45) (V c main_arg5)
    (featureRows2 V c t) (weightBlock2 V c t)
  obtain ⟨-, -, -, -, e4, e5⟩ := blockIndex2 t
  funext j
  obtain ⟨p, q, rfl⟩ : ∃ (p : Fin 5000) (q : Fin 96), j = ix2 p q := ⟨j 0, j 1, eq_ix2 j⟩
  refine (hp p q).trans ?_
  show _ = Host.dotGeneral (F := Ideal) (φ₁ := .f32) (φ₂ := .f32) (DotDims.plain 50000 96 96) none
        (V c main_v45 : FVec Ideal S50000x96 .f32) (V c main_arg5 : FVec Ideal S96x96 .f32) (((cfg2.win 2).blk t).view.emb (ix2 p q))
  refine congrArg _ ?_
  funext a
  apply Fin.ext
  match a with
  | ⟨0, _⟩ => show t.val * 5000 + p.val = win2_2.index t (0 : Fin 2) * 5000 + 1 * p.val; rw [e4]; omega
  | ⟨1, _⟩ => show q.val = win2_2.index t (1 : Fin 2) * 96 + 1 * q.val; rw [e5]; omega

/-- An index of the output is in step t's block iff each coordinate is in the block's range on its axis. -/
theorem inBlock2 (t : Fin cfg2.N) (i : S50000x96.Idx) :
    i ∈ ((cfg2.win 2).blk t).view.set ↔ ∀ a : Fin 2, win2_2.index t a * S5000x96.size a ≤ (i a).val ∧ (i a).val < win2_2.index t a * S5000x96.size a + S5000x96.size a := by
  show i ∈ ((View.whole main_v46).slice (win2_2.rect t)).set ↔ _
  rw [View.set_slice_whole, Rect.mem_set_unit]
  exact Iff.rfl

/-- Row r of the output is written by step r / 5000: the ten blocks fill the array. -/
theorem filled2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  have hN : grid2.N = 10 := N_2
  let t : Fin cfg2.N := ⟨(i 0).val / 5000, by show (i 0).val / 5000 < grid2.N; rw [hN]; omega⟩
  obtain ⟨-, -, -, -, e4, e5⟩ := blockIndex2 t
  have e4' : win2_2.index t (0 : Fin 2) = (i 0).val / 5000 := e4
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; rw [e4']; omega
  | ⟨1, _⟩ => show win2_2.index t (1 : Fin 2) * 96 ≤ (i 1).val ∧ (i 1).val < win2_2.index t (1 : Fin 2) * 96 + 96; rw [e5]; omega

/-- THE SECOND LAYER: after its ten steps the output array is the plain product of the features and the weights as the
    layer found them. -/
theorem lin2_product (c : Dev nD) :
    (Cert.KernelIdeal.Gen.dat2 (F := Ideal) V c).arrAt 2 cfg2.N
      = Host.dotGeneral (F := Ideal) (φ₁ := .f32) (φ₂ := .f32) (DotDims.plain 50000 96 96) none
          (V c main_v45 : FVec Ideal S50000x96 .f32) (V c main_arg5 : FVec Ideal S96x96 .f32) :=
  (dat2 (F := Ideal) V c).arrAt_eq_of_cover 2 _ (fun t _ => written2 V c t) filled2

/-! ## The two layers against the network's specification -/

/-- The first layer's output is the specification's x · W1 of the arrays the layer found (the same product, its
    dimension numbers spelt by the specification's record). -/
theorem lin1_final (c : Dev nD) :
    (Cert.KernelIdeal.Gen.dat0 (F := Ideal) V c).arrAt 2 cfg0.N = Cert.Gcn.Spec.lin1 (V c main_arg0) (V c main_arg3) :=
  (lin1_product V c).trans rfl

/-- The second layer's output is the specification's h · W2 of the arrays the layer found. -/
theorem lin2_final (c : Dev nD) :
    (Cert.KernelIdeal.Gen.dat2 (F := Ideal) V c).arrAt 2 cfg2.N = Cert.Gcn.Spec.lin2 (V c main_v45) (V c main_arg5) :=
  (lin2_product V c).trans rfl

end Cert.Gcn.Linear

end
-- ==== Proof.FuseRegions.lean ====
/-
  The two fused layers of the graph convolution, each as ONE expression of whole arrays.

  Each of the two regions works through the 50000 node rows 5000 at a time. At point t it reads rows 5000t … 5000t + 4999
  of the aggregated messages, of the linear features and of the column of squared inverse-root degrees, and the bias
  row (the same [1, 96] row at every point), and writes rows 5000t … 5000t + 4999 of
      aggregated + (degree column, repeated across the 96 columns) · linear + (bias row, repeated down the rows),
  the first region then taking the maximum with zero. Working on R rows of an array and then taking the result is the
  same as taking R rows of the result of working on the whole array, for each of these operations; so what point t
  writes is rows 5000t … of the whole-array expression, and since the ten blocks of 5000 rows tile the 50000 rows the
  output array ends holding that expression. The arrays are the region's inputs as the region finds them, whatever they
  hold; the side conditions of the three broadcasts are hypotheses, so that any proof of them fits.
-/
import proofs.«110277_j8134668059260_1_alg».proof.Proof.Gen.KernelIdeal.Frame
import proofs.«110277_j8134668059260_1_alg».proof.Proof.LibRowBlock

set_option maxRecDepth 16384

noncomputable section

namespace Cert.Gcn.Fuse

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.RowBlock

/-- The offsets (0, 0) are the zero offsets. -/
theorem zeroOffsets : (![0, 0] : Fin 2 → Nat) = fun _ => 0 := funext fun a => by fin_cases a <;> rfl

/-! ## The body's arithmetic on 5000 rows -/

/-- The first layer's body: from rows 5000t … of the aggregated messages, of the degree column and of the linear
    features, and the bias row, it computes rows 5000t … of max(aggregated + column · linear + bias, 0). -/
theorem reluBlock_rows {t : ℕ} (h : t * 5000 + 5000 ≤ 50000)
    (x0 : Vec Ideal S5000x96 .f32) (x2 : Vec Ideal S5000x1 .f32) (x4 : Vec Ideal S5000x96 .f32) (x9 : Vec Ideal S1x96 .f32)
    (a0 : (⟨2, ![50000, 96]⟩ : Shape).Idx → EReal) (a2 : (⟨2, ![50000, 1]⟩ : Shape).Idx → EReal)
    (a4 : (⟨2, ![50000, 96]⟩ : Shape).Idx → EReal)
    (h0 : IsRows t h x0 a0) (h2 : IsRows t h x2 a2) (h4 : IsRows t h x4 a4)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1])
    (hz : (⟨0, ![]⟩ : Shape).BroadcastsInDim ⟨2, ![50000, 96]⟩ ![]) :
    IsRows t h (k1_pay1 x0 x2 x4 x9)
      (maximumf (addf (addf a0 (mulf (broadcastInDim ⟨2, ![50000, 96]⟩ ![0, 1] hcol a2) a4))
                      (broadcastInDim ⟨2, ![50000, 96]⟩ ![0, 1] hrow x9))
                (broadcastInDim ⟨2, ![50000, 96]⟩ ![] hz (constant (F := Ideal) ⟨0, ![]⟩ .f32 0x00000000#32))) := by
  unfold k1_pay1
  refine IsRows.maximumf (IsRows.addf (IsRows.addf (h0.castSelf _)
    (IsRows.mulf (IsRows.colBroadcast (h2.castSelf _) hcol _) (h4.castSelf _))) ?_) (IsRows.const _ hz)
  rw [shapeCast_self]
  exact IsRows.rowBroadcast x9 hrow _

/-- The second layer's body: the same sum, with no maximum. -/
theorem sumBlock_rows {t : ℕ} (h : t * 5000 + 5000 ≤ 50000)
    (x0 : Vec Ideal S5000x96 .f32) (x2 : Vec Ideal S5000x1 .f32) (x4 : Vec Ideal S5000x96 .f32) (x9 : Vec Ideal S1x96 .f32)
    (a0 : (⟨2, ![50000, 96]⟩ : Shape).Idx → EReal) (a2 : (⟨2, ![50000, 1]⟩ : Shape).Idx → EReal)
    (a4 : (⟨2, ![50000, 96]⟩ : Shape).Idx → EReal)
    (h0 : IsRows t h x0 a0) (h2 : IsRows t h x2 a2) (h4 : IsRows t h x4 a4)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1]) :
    IsRows t h (k3_pay1 x0 x2 x4 x9)
      (addf (addf a0 (mulf (broadcastInDim ⟨2, ![50000, 96]⟩ ![0, 1] hcol a2) a4))
            (broadcastInDim ⟨2, ![50000, 96]⟩ ![0, 1] hrow x9) : FVec Ideal ⟨2, ![50000, 96]⟩ .f32) := by
  unfold k3_pay1
  refine IsRows.addf (IsRows.addf (h0.castSelf _)
    (IsRows.mulf (IsRows.colBroadcast (h2.castSelf _) hcol _) (h4.castSelf _))) ?_
  rw [shapeCast_self]
  exact IsRows.rowBroadcast x9 hrow _

/-! ## The first fused layer (region 1) -/

/-- The printed index maps over the ten points: the three row-tiled inputs and the output sit at block (t, 0), the bias
    row at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Rows 5000t … 5000t + 4999 are rows of the array, for each of the ten points. -/
theorem rows_fit1 (t : Fin cfg1.N) : t.val * 5000 + 5000 ≤ 50000 := by
  have hN : cfg1.N = 10 := N_1
  have := t.isLt
  omega

/-- The block of the aggregated messages at point t is rows 5000t … of that array. -/
theorem blk1_0_rows (V : (c : Dev nD) → (b : Ref sig .tc) → Buf (Elt Ideal) ((c : Thread nD τ).loc b)) (c : Dev nD)
    (t : Fin cfg1.N) : IsRows t.val (rows_fit1 t) (iblk1 (F := Ideal) V c 0 t) (V c main_v44) := by
  obtain ⟨e0, e1, -⟩ := idx1 t
  intro p q
  show V c main_v44 (((cfg1.win 0).blk t).view.emb (ix2 p q)) = V c main_v44 (ix2 (row t.val (rows_fit1 t) p) q)
  refine congrArg (V c main_v44) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 96 + 1 * q.val = q.val; rw [e1]; omega

/-- The block of the linear features at point t is rows 5000t … of that array. -/
theorem blk1_1_rows (V : (c : Dev nD) → (b : Ref sig .tc) → Buf (Elt Ideal) ((c : Thread nD τ).loc b)) (c : Dev nD)
    (t : Fin cfg1.N) : IsRows t.val (rows_fit1 t) (iblk1 (F := Ideal) V c 1 t) (V c main_v31) := by
  obtain ⟨-, -, e0, e1, -⟩ := idx1 t
  intro p q
  show V c main_v31 (((cfg1.win 1).blk t).view.emb (ix2 p q)) = V c main_v31 (ix2 (row t.val (rows_fit1 t) p) q)
  refine congrArg (V c main_v31) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 96 + 1 * q.val = q.val; rw [e1]; omega

/-- The block of the degree column at point t is rows 5000t … of that column. -/
theorem blk1_2_rows (V : (c : Dev nD) → (b : Ref sig .tc) → Buf (Elt Ideal) ((c : Thread nD τ).loc b)) (c : Dev nD)
    (t : Fin cfg1.N) : IsRows t.val (rows_fit1 t) (iblk1 (F := Ideal) V c 2 t) (V c main_v28) := by
  obtain ⟨-, -, -, -, e0, e1, -⟩ := idx1 t
  intro p q
  show V c main_v28 (((cfg1.win 2).blk t).view.emb (ix2 p q)) = V c main_v28 (ix2 (row t.val (rows_fit1 t) p) q)
  refine congrArg (V c main_v28) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 1 + 1 * q.val = q.val; rw [e1]; omega

/-- The block of the bias row is the whole row, at every point. -/
theorem blk1_3_whole (V : (c : Dev nD) → (b : Ref sig .tc) → Buf (Elt Ideal) ((c : Thread nD τ).loc b)) (c : Dev nD)
    (t : Fin cfg1.N) : (iblk1 (F := Ideal) V c 3 t : Vec Ideal S1x96 .f32) = V c main_v29 := by
  obtain ⟨-, -, -, -, -, -, e0, e1, -⟩ := idx1 t
  funext j
  show V c main_v29 (((cfg1.win 3).blk t).view.emb j) = V c main_v29 j
  refine congrArg (V c main_v29) (funext fun a => Fin.ext ?_)
  match a with
  | ⟨0, _⟩ => show win1_3.index t (0 : Fin 2) * 1 + 1 * (j 0).val = (j 0).val; rw [e0]; omega
  | ⟨1, _⟩ => show win1_3.index t (1 : Fin 2) * 96 + 1 * (j 1).val = (j 1).val; rw [e1]; omega

/-- The first layer's output as one expression of the four arrays the region finds. -/
abbrev relu1 (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1])
    (hz : (⟨0, ![]⟩ : Shape).BroadcastsInDim ⟨2, ![50000, 96]⟩ ![]) : FVec Ideal ⟨2, ![50000, 96]⟩ .f32 :=
  maximumf (addf (addf (V c main_v44) (mulf (broadcastInDim ⟨2, ![50000, 96]⟩ ![0, 1] hcol (V c main_v28)) (V c main_v31)))
                 (broadcastInDim ⟨2, ![50000, 96]⟩ ![0, 1] hrow (V c main_v29)))
           (broadcastInDim ⟨2, ![50000, 96]⟩ ![] hz (constant (F := Ideal) ⟨0, ![]⟩ .f32 0x00000000#32))

/-- What point t writes back is block t of that expression. -/
theorem flushed1_eq (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1])
    (hz : (⟨0, ![]⟩ : Shape).BroadcastsInDim ⟨2, ![50000, 96]⟩ ![]) (t : Fin cfg1.N) :
    (dat1 (F := Ideal) V c).flushed 4 t = ((cfg1.win 4).blk t).view.read (Elt Ideal) (relu1 V c hcol hrow hz) := by
  show (cfg1.win 4).cut (grid1.coords t) ((dat1 (F := Ideal) V c).after 4 t) = _
  rw [after1_4]
  unfold out1_4
  rw [View.canon_unit_zero zeroOffsets]
  simp only [View.ld_unit_zero (S := S5000x96) zeroOffsets, View.ld_unit_zero (S := S5000x1) zeroOffsets,
    View.ld_unit_zero (S := S1x96) zeroOffsets]
  rw [blk1_3_whole V c t]
  obtain ⟨-, -, -, -, -, -, -, -, e0, e1⟩ := idx1 t
  funext j
  obtain ⟨p, q, rfl⟩ : ∃ (p : Fin 5000) (q : Fin 96), j = ix2 p q := ⟨j 0, j 1, eq_ix2 j⟩
  show k1_pay1 (iblk1 (F := Ideal) V c 0 t) (iblk1 (F := Ideal) V c 2 t) (iblk1 (F := Ideal) V c 1 t) (V c main_v29) (ix2 p q)
    = relu1 V c hcol hrow hz (((cfg1.win 4).blk t).view.emb (ix2 p q))
  refine (reluBlock_rows (rows_fit1 t) _ _ _ _ _ _ _ (blk1_0_rows V c t) (blk1_2_rows V c t) (blk1_1_rows V c t)
    hcol hrow hz p q).trans ?_
  refine congrArg (relu1 V c hcol hrow hz) (funext fun a => Fin.ext ?_)
  match a with
  | ⟨0, _⟩ => show t.val * 5000 + p.val = win1_4.index t (0 : Fin 2) * 5000 + 1 * p.val; rw [e0]; omega
  | ⟨1, _⟩ => show q.val = win1_4.index t (1 : Fin 2) * 96 + 1 * q.val; rw [e1]; omega

/-- An index of the output array is in point t's block iff each coordinate is in the block's range on its axis. -/
theorem mem_blk1 (t : Fin cfg1.N) (i : S50000x96.Idx) :
    i ∈ ((cfg1.win 4).blk t).view.set ↔ ∀ a : Fin 2, win1_4.index t a * S5000x96.size a ≤ (i a).val
      ∧ (i a).val < win1_4.index t a * S5000x96.size a + S5000x96.size a := by
  show i ∈ ((View.whole main_v45).slice (win1_4.rect t)).set ↔ _
  rw [View.set_slice_whole, Rect.mem_set_unit]
  exact Iff.rfl

/-- Row r of the output lies in the block of point r / 5000: the ten blocks tile the 50000 rows. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  have hN : cfg1.N = 10 := N_1
  have ht : (i 0).val / 5000 < cfg1.N := by rw [hN]; omega
  obtain ⟨-, -, -, -, -, -, -, -, e0, e1⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ (1 : Fin 2) * 96 ≤ (i 1).val
      ∧ (i 1).val < win1_4.index ⟨(i 0).val / 5000, ht⟩ (1 : Fin 2) * 96 + 96
    rw [e1]
    omega

/-- After region 1 its output array holds the first fused layer of the arrays the region found. -/
theorem fuse1_final (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1])
    (hz : (⟨0, ![]⟩ : Shape).BroadcastsInDim ⟨2, ![50000, 96]⟩ ![]) :
    (Cert.KernelIdeal.Gen.dat1 (F := Ideal) V c).arrAt 4 cfg1.N
      = maximumf (addf (addf (V c main_v44) (mulf (broadcastInDim ⟨2, ![50000, 96]⟩ ![0, 1] hcol (V c main_v28)) (V c main_v31)))
                       (broadcastInDim ⟨2, ![50000, 96]⟩ ![0, 1] hrow (V c main_v29)))
                 (broadcastInDim ⟨2, ![50000, 96]⟩ ![] hz (constant (F := Ideal) ⟨0, ![]⟩ .f32 0x00000000#32)) :=
  (dat1 (F := Ideal) V c).arrAt_eq_of_cover 4 (relu1 V c hcol hrow hz) (fun t _ => flushed1_eq V c hcol hrow hz t) cover1

/-! ## The second fused layer (region 3) -/

/-- The printed index maps over the ten points: the three row-tiled inputs and the output sit at block (t, 0), the bias
    row at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Rows 5000t … 5000t + 4999 are rows of the array, for each of the ten points. -/
theorem rows_fit3 (t : Fin cfg3.N) : t.val * 5000 + 5000 ≤ 50000 := by
  have hN : cfg3.N = 10 := N_3
  have := t.isLt
  omega

/-- The block of the aggregated messages at point t is rows 5000t … of that array. -/
theorem blk3_0_rows (V : (c : Dev nD) → (b : Ref sig .tc) → Buf (Elt Ideal) ((c : Thread nD τ).loc b)) (c : Dev nD)
    (t : Fin cfg3.N) : IsRows t.val (rows_fit3 t) (iblk3 (F := Ideal) V c 0 t) (V c main_v59) := by
  obtain ⟨e0, e1, -⟩ := idx3 t
  intro p q
  show V c main_v59 (((cfg3.win 0).blk t).view.emb (ix2 p q)) = V c main_v59 (ix2 (row t.val (rows_fit3 t) p) q)
  refine congrArg (V c main_v59) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 96 + 1 * q.val = q.val; rw [e1]; omega

/-- The block of the linear features at point t is rows 5000t … of that array. -/
theorem blk3_1_rows (V : (c : Dev nD) → (b : Ref sig .tc) → Buf (Elt Ideal) ((c : Thread nD τ).loc b)) (c : Dev nD)
    (t : Fin cfg3.N) : IsRows t.val (rows_fit3 t) (iblk3 (F := Ideal) V c 1 t) (V c main_v46) := by
  obtain ⟨-, -, e0, e1, -⟩ := idx3 t
  intro p q
  show V c main_v46 (((cfg3.win 1).blk t).view.emb (ix2 p q)) = V c main_v46 (ix2 (row t.val (rows_fit3 t) p) q)
  refine congrArg (V c main_v46) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 96 + 1 * q.val = q.val; rw [e1]; omega

/-- The block of the degree column at point t is rows 5000t … of that column. -/
theorem blk3_2_rows (V : (c : Dev nD) → (b : Ref sig .tc) → Buf (Elt Ideal) ((c : Thread nD τ).loc b)) (c : Dev nD)
    (t : Fin cfg3.N) : IsRows t.val (rows_fit3 t) (iblk3 (F := Ideal) V c 2 t) (V c main_v28) := by
  obtain ⟨-, -, -, -, e0, e1, -⟩ := idx3 t
  intro p q
  show V c main_v28 (((cfg3.win 2).blk t).view.emb (ix2 p q)) = V c main_v28 (ix2 (row t.val (rows_fit3 t) p) q)
  refine congrArg (V c main_v28) (funext fun a => Fin.ext ?_)
  match a with
  | ⟨0, _⟩ => show win3_2.index t (0 : Fin 2) * 5000 + 1 * p.val = t.val * 5000 + p.val; rw [e0]; omega
  | ⟨1, _⟩ => show win3_2.index t (1 : Fin 2) * 1 + 1 * q.val = q.val; rw [e1]; omega

/-- The block of the bias row is the whole row, at every point. -/
theorem blk3_3_whole (V : (c : Dev nD) → (b : Ref sig .tc) → Buf (Elt Ideal) ((c : Thread nD τ).loc b)) (c : Dev nD)
    (t : Fin cfg3.N) : (iblk3 (F := Ideal) V c 3 t : Vec Ideal S1x96 .f32) = V c main_v30 := by
  obtain ⟨-, -, -, -, -, -, e0, e1, -⟩ := idx3 t
  funext j
  show V c main_v30 (((cfg3.win 3).blk t).view.emb j) = V c main_v30 j
  refine congrArg (V c main_v30) (funext fun a => Fin.ext ?_)
  match a with
  | ⟨0, _⟩ => show win3_3.index t (0 : Fin 2) * 1 + 1 * (j 0).val = (j 0).val; rw [e0]; omega
  | ⟨1, _⟩ => show win3_3.index t (1 : Fin 2) * 96 + 1 * (j 1).val = (j 1).val; rw [e1]; omega

/-- The second layer's output as one expression of the four arrays the region finds. -/
abbrev sum2 (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1]) : FVec Ideal ⟨2, ![50000, 96]⟩ .f32 :=
  addf (addf (V c main_v59) (mulf (broadcastInDim ⟨2, ![50000, 96]⟩ ![0, 1] hcol (V c main_v28)) (V c main_v46)))
       (broadcastInDim ⟨2, ![50000, 96]⟩ ![0, 1] hrow (V c main_v30))

/-- What point t writes back is block t of that expression. -/
theorem flushed3_eq (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1]) (t : Fin cfg3.N) :
    (dat3 (F := Ideal) V c).flushed 4 t = ((cfg3.win 4).blk t).view.read (Elt Ideal) (sum2 V c hcol hrow) := by
  show (cfg3.win 4).cut (grid3.coords t) ((dat3 (F := Ideal) V c).after 4 t) = _
  rw [after3_4]
  unfold out3_4
  rw [View.canon_unit_zero zeroOffsets]
  simp only [View.ld_unit_zero (S := S5000x96) zeroOffsets, View.ld_unit_zero (S := S5000x1) zeroOffsets,
    View.ld_unit_zero (S := S1x96) zeroOffsets]
  rw [blk3_3_whole V c t]
  obtain ⟨-, -, -, -, -, -, -, -, e0, e1⟩ := idx3 t
  funext j
  obtain ⟨p, q, rfl⟩ : ∃ (p : Fin 5000) (q : Fin 96), j = ix2 p q := ⟨j 0, j 1, eq_ix2 j⟩
  show k3_pay1 (iblk3 (F := Ideal) V c 0 t) (iblk3 (F := Ideal) V c 2 t) (iblk3 (F := Ideal) V c 1 t) (V c main_v30) (ix2 p q)
    = sum2 V c hcol hrow (((cfg3.win 4).blk t).view.emb (ix2 p q))
  refine (sumBlock_rows (rows_fit3 t) _ _ _ _ _ _ _ (blk3_0_rows V c t) (blk3_2_rows V c t) (blk3_1_rows V c t)
    hcol hrow p q).trans ?_
  refine congrArg (sum2 V c hcol hrow) (funext fun a => Fin.ext ?_)
  match a with
  | ⟨0, _⟩ => show t.val * 5000 + p.val = win3_4.index t (0 : Fin 2) * 5000 + 1 * p.val; rw [e0]; omega
  | ⟨1, _⟩ => show q.val = win3_4.index t (1 : Fin 2) * 96 + 1 * q.val; rw [e1]; omega

/-- An index of the output array is in point t's block iff each coordinate is in the block's range on its axis. -/
theorem mem_blk3 (t : Fin cfg3.N) (i : S50000x96.Idx) :
    i ∈ ((cfg3.win 4).blk t).view.set ↔ ∀ a : Fin 2, win3_4.index t a * S5000x96.size a ≤ (i a).val
      ∧ (i a).val < win3_4.index t a * S5000x96.size a + S5000x96.size a := by
  show i ∈ ((View.whole main_v60).slice (win3_4.rect t)).set ↔ _
  rw [View.set_slice_whole, Rect.mem_set_unit]
  exact Iff.rfl

/-- Row r of the output lies in the block of point r / 5000: the ten blocks tile the 50000 rows. -/
theorem cover3 (i : S50000x96.Idx) :
    ∃ t : Fin cfg3.N, (cfg3.win 4).flush t = true ∧ i ∈ ((cfg3.win 4).blk t).view.set := by
  have hi0 : (i 0).val < 50000 := (i 0).isLt
  have hi1 : (i 1).val < 96 := (i 1).isLt
  have hN : cfg3.N = 10 := N_3
  have ht : (i 0).val / 5000 < cfg3.N := by rw [hN]; omega
  obtain ⟨-, -, -, -, -, -, -, -, e0, e1⟩ := idx3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_4.index ⟨(i 0).val / 5000, ht⟩ (1 : Fin 2) * 96 ≤ (i 1).val
      ∧ (i 1).val < win3_4.index ⟨(i 0).val / 5000, ht⟩ (1 : Fin 2) * 96 + 96
    rw [e1]
    omega

/-- After region 3 its output array holds the second fused layer of the arrays the region found. -/
theorem fuse2_final (V : (c : Dev nD) → (b : Ref sig .tc) → Buf (Elt Ideal) ((c : Thread nD τ).loc b)) (c : Dev nD)
    (hcol : (⟨2, ![50000, 1]⟩ : Shape).BroadcastsInDim ⟨2, ![50000, 96]⟩ ![0, 1])
    (hrow : (⟨2, ![1, 96]⟩ : Shape).BroadcastsInDim ⟨2, ![50000, 96]⟩ ![0, 1]) :
    (Cert.KernelIdeal.Gen.dat3 (F := Ideal) V c).arrAt 4 cfg3.N
      = (addf (addf (V c main_v59) (mulf (broadcastInDim ⟨2, ![50000, 96]⟩ ![0, 1] hcol (V c main_v28)) (V c main_v46)))
              (broadcastInDim ⟨2, ![50000, 96]⟩ ![0, 1] hrow (V c main_v30)) : FVec Ideal ⟨2, ![50000, 96]⟩ .f32) :=
  (dat3 (F := Ideal) V c).arrAt_eq_of_cover 4 (sum2 V c hcol hrow) (fun t _ => flushed3_eq V c hcol hrow t) cover3

end Cert.Gcn.Fuse

end
-- ==== Proof.LibRowExtrema.lean ====
/-
  Row extrema of an [a, b] array of extended reals read at a row, as a supremum or an infimum over the row: the
  vector unit's reduction along the last axis started from -inf (maximum) or +inf (minimum), and the host's reduction
  along the last axis from a scalar initial value that is -inf or +inf. A fold of max from the bottom element is the
  supremum, a fold of min from the top element the infimum; so a row extremum taken tile by tile and one taken on
  the whole row can be compared by the order alone.
-/
import Idealize.ShloMosaic.PureOps.Ideal.Laws
import Idealize.ShloMosaic.Lib.ValueIdx

noncomputable section

namespace Cert.Lib.RowExtrema

open Idealize.ShloMosaic Idealize.ShloMosaic.ValueIdx

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A fold of `max` from the bottom element is the supremum. -/
theorem fold_max_bot {ι : Type} (s : Finset ι) (f : ι → EReal) : s.fold max ⊥ f = s.sup f := rfl
/-- A fold of `min` from the top element is the infimum. -/
theorem fold_min_top {ι : Type} (s : Finset ι) (f : ι → EReal) : s.fold min ⊤ f = s.inf f := rfl

/-- The vector unit's maximum over the last axis of an `[a, b]` array from -inf, at row `r`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).sup (fun k => src (ix2 r k)) := by
  have e : (Finset.univ : Finset (Fin b)).fold max (Ideal.ofBits .f32 0xFF800000#32) (fun k => src (ix2 r k))
      = (Finset.univ : Finset (Fin b)).sup (fun k => src (ix2 r k)) := by rw [negInf_f32]; rfl
  refine (Ideal.multiReduction_maximumf_single src _ h hφ hacc (ix1 r)).trans (Eq.trans ?_ e)
  exact congrArg (fun f : Fin b → EReal => (Finset.univ : Finset (Fin b)).fold max (Ideal.ofBits .f32 0xFF800000#32) f)
    (funext fun k => congrArg src (funext fun ax => Fin.ext (by
      match ax with
      | ⟨0, _⟩ => rfl
      | ⟨1, _⟩ => rfl)))

/-- The vector unit's minimum over the last axis of an `[a, b]` array from +inf, at row `r`. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun k => src (ix2 r k)) := by
  have e : (Finset.univ : Finset (Fin b)).fold min (Ideal.ofBits .f32 0x7F800000#32) (fun k => src (ix2 r k))
      = (Finset.univ : Finset (Fin b)).inf (fun k => src (ix2 r k)) := by rw [posInf_f32]; rfl
  rw [multiReduction_minimumf_eq_fold]
  refine (h.fold_filter_drop_single _ _ src (ix1 r)).trans (Eq.trans ?_ e)
  exact congrArg (fun f : Fin b → EReal => (Finset.univ : Finset (Fin b)).fold min (Ideal.ofBits .f32 0x7F800000#32) f)
    (funext fun k => congrArg src (funext fun ax => Fin.ext (by
      match ax with
      | ⟨0, _⟩ => rfl
      | ⟨1, _⟩ => rfl)))

/-- The host's maximum over the last axis of an `[a, b]` array from a scalar initial value that is -inf, at row `r`. -/
theorem hostRowMax_apply {a b : ℕ} (x : FVec Ideal ⟨2, ![a, b]⟩ .f32) (init : (⟨0, ![]⟩ : Shape).Idx → Ideal .f32)
    (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r) = (Finset.univ : Finset (Fin b)).sup (fun k => x (ix2 r k)) := by
  have e : (Finset.univ : Finset (Fin b)).fold max (⊥ : EReal) (fun k => x (ix2 r k))
      = (Finset.univ : Finset (Fin b)).sup (fun k => x (ix2 r k)) := rfl
  refine (Host.reduce_eq_fold_single FloatOps.maximumf x init h' h hu (ix1 r)).trans (Eq.trans ?_ e)
  rw [hinit]
  exact congrArg (fun f : Fin b → EReal => (Finset.univ : Finset (Fin b)).fold max (⊥ : EReal) f)
    (funext fun k => congrArg x (funext fun ax => Fin.ext (by
      match ax with
      | ⟨0, _⟩ => rfl
      | ⟨1, _⟩ => rfl)))

/-- The host's minimum over the last axis of an `[a, b]` array from a scalar initial value that is +inf, at row `r`. -/
theorem hostRowMin_apply {a b : ℕ} (x : FVec Ideal ⟨2, ![a, b]⟩ .f32) (init : (⟨0, ![]⟩ : Shape).Idx → Ideal .f32)
    (hinit : ∀ i, init i = (⊤ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.minimumf x init h' hu (ix1 r) = (Finset.univ : Finset (Fin b)).inf (fun k => x (ix2 r k)) := by
  have e : (Finset.univ : Finset (Fin b)).fold min (⊤ : EReal) (fun k => x (ix2 r k))
      = (Finset.univ : Finset (Fin b)).inf (fun k => x (ix2 r k)) := rfl
  refine (Host.reduce_eq_fold_single FloatOps.minimumf x init h' h hu (ix1 r)).trans (Eq.trans ?_ e)
  rw [hinit]
  exact congrArg (fun f : Fin b → EReal => (Finset.univ : Finset (Fin b)).fold min (⊤ : EReal) f)
    (funext fun k => congrArg x (funext fun ax => Fin.ext (by
      match ax with
      | ⟨0, _⟩ => rfl
      | ⟨1, _⟩ => rfl)))

end Cert.Lib.RowExtrema

end
-- ==== Proof.LibColRow.lean ====
/-
  Columns read at an index: a vector of length a viewed as an [a, 1] column, an [a, 1] column viewed as a vector of
  length a, and an [a, 1] column repeated across b columns; in any element type.
-/
import Idealize.ShloMosaic.Lib.ValueIdx
import Idealize.ShloMosaic.Lib.ValueLayout
import Idealize.ShloMosaic.Lib.Pipeline.Value

namespace Cert.Lib.ColRow

open Idealize.ShloMosaic Idealize.ShloMosaic.ValueIdx

variable {α : Type}

/-- A vector of length `a` viewed as an `[a, 1]` column reads, at `(r, 0)`, the vector at `r`. -/
theorem col_of_vec {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- An `[a, 1]` column viewed as a vector of length `a` reads, at `r`, the column at `(r, 0)`. -/
theorem vec_of_col {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column repeated across `b` columns reads, at `(r, k)`, the column at `(r, 0)`. -/
theorem bcast_col {a b : ℕ} (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) := by
  refine broadcastTo_apply x h (ix2 r k) (ix2 r (0 : Fin 1)) fun ax => ?_
  match ax with
  | ⟨0, _⟩ =>
    show r.val = if a = 1 then 0 else r.val
    split
    · have := r.isLt; omega
    · rfl
  | ⟨1, _⟩ => rfl

end Cert.Lib.ColRow
-- ==== Proof.LibSageRows.lean ====
/-
  Rows t·R … t·R + R − 1 of the layers of a graph network that works on each row by itself, on the extended reals:
  the affine layer  m · Wl + x · Wr + b  (two matrix products with fixed right factors and a bias row added to every
  row), the same layer followed by max(·, 0), and the logarithm of the softmax along each row,
  v − rowmax(v) − log(Σ_k exp(v − rowmax(v))). Each is stated with the R-row side written in the vector unit's
  operations and the whole-array side in the host's: from R rows of the inputs, the R-row program produces the same
  R rows of what the whole-array program produces.
-/
import proofs.«110277_j8134668059260_1_alg».proof.Proof.LibRowBlock
import proofs.«110277_j8134668059260_1_alg».proof.Proof.LibGroupSum
import proofs.«110277_j8134668059260_1_alg».proof.Proof.LibRowExtrema
import proofs.«110277_j8134668059260_1_alg».proof.Proof.LibColRow

noncomputable section

open scoped BigOperators

namespace Cert.Sage.Rows

open Idealize.ShloMosaic Idealize.ShloMosaic.ValueIdx Idealize.ShloMosaic.RowBlock

variable {B R K N n : ℕ} {t : ℕ} {h : t * R + R ≤ B}

/-- The affine layer: the R rows of  m · Wl + x · Wr + b  are that expression of the R rows of m and of x. A change of
    float format is the identity on the extended reals, so the weights on the two sides agree entry by entry. -/
theorem sageAffine_rows {m' xt' : FVec Ideal ⟨2, ![R, K]⟩ .f32} {m xt : FVec Ideal ⟨2, ![B, K]⟩ .f32}
    (wl wr : FVec Ideal ⟨2, ![K, N]⟩ .f32) (b : FVec Ideal ⟨1, ![N]⟩ .f32)
    (hm : IsRows t h m' m) (hx : IsRows t h xt' xt)
    (hc₁ : (⟨2, ![R, K]⟩ : Shape).ShapeCasts ⟨2, ![R, K]⟩) (hψ : FTy.bf16.bits < FTy.f32.bits)
    (hc₂ : (⟨1, ![N]⟩ : Shape).ShapeCasts ⟨2, ![1, N]⟩) (hR : (⟨2, ![1, N]⟩ : Shape).Broadcasts ⟨2, ![R, N]⟩)
    (hb : (⟨1, ![N]⟩ : Shape).BroadcastsInDim ⟨2, ![1, N]⟩ ![1])
    (hB : (⟨2, ![1, N]⟩ : Shape).BroadcastsInDim ⟨2, ![B, N]⟩ ![0, 1]) :
    IsRows t h
      (addf (addf (matmul (DotDims.plain R K N) none (truncf .bf16 (shapeCast ⟨2, ![R, K]⟩ m' hc₁) hψ) (truncf .bf16 wl hψ) (constant ⟨2, ![R, N]⟩ .f32 0x00000000#32))
                  (matmul (DotDims.plain R K N) none (truncf .bf16 (shapeCast ⟨2, ![R, K]⟩ xt' hc₁) hψ) (truncf .bf16 wr hψ) (constant ⟨2, ![R, N]⟩ .f32 0x00000000#32)))
            (broadcastTo ⟨2, ![R, N]⟩ (shapeCast ⟨2, ![1, N]⟩ b hc₂) hR))
      (addf (addf (Host.dotGeneral (DotDims.plain B K N) none m wl) (Host.dotGeneral (DotDims.plain B K N) none xt wr))
            (broadcastInDim ⟨2, ![B, N]⟩ ![0, 1] hB (broadcastInDim ⟨2, ![1, N]⟩ ![1] hb b))) :=
  IsRows.addf
    (IsRows.addf
      (IsRows.dot (IsRows.truncf hψ (IsRows.castSelf hc₁ hm)) (fun _ _ => rfl))
      (IsRows.dot (IsRows.truncf hψ (IsRows.castSelf hc₁ hx)) (fun _ _ => rfl)))
    (IsRows.bias b hc₂ hb hB hR)

/-- The affine layer followed by max(·, 0). -/
theorem sageRelu_rows {m' xt' : FVec Ideal ⟨2, ![R, K]⟩ .f32} {m xt : FVec Ideal ⟨2, ![B, K]⟩ .f32}
    (wl wr : FVec Ideal ⟨2, ![K, N]⟩ .f32) (b : FVec Ideal ⟨1, ![N]⟩ .f32)
    (hm : IsRows t h m' m) (hx : IsRows t h xt' xt)
    (hc₁ : (⟨2, ![R, K]⟩ : Shape).ShapeCasts ⟨2, ![R, K]⟩) (hψ : FTy.bf16.bits < FTy.f32.bits)
    (hc₂ : (⟨1, ![N]⟩ : Shape).ShapeCasts ⟨2, ![1, N]⟩) (hR : (⟨2, ![1, N]⟩ : Shape).Broadcasts ⟨2, ![R, N]⟩)
    (hb : (⟨1, ![N]⟩ : Shape).BroadcastsInDim ⟨2, ![1, N]⟩ ![1])
    (hB : (⟨2, ![1, N]⟩ : Shape).BroadcastsInDim ⟨2, ![B, N]⟩ ![0, 1])
    (hz : (⟨0, ![]⟩ : Shape).BroadcastsInDim ⟨2, ![B, N]⟩ ![]) :
    IsRows t h
      (maximumf
        (addf (addf (matmul (DotDims.plain R K N) none (truncf .bf16 (shapeCast ⟨2, ![R, K]⟩ m' hc₁) hψ) (truncf .bf16 wl hψ) (constant ⟨2, ![R, N]⟩ .f32 0x00000000#32))
                    (matmul (DotDims.plain R K N) none (truncf .bf16 (shapeCast ⟨2, ![R, K]⟩ xt' hc₁) hψ) (truncf .bf16 wr hψ) (constant ⟨2, ![R, N]⟩ .f32 0x00000000#32)))
              (broadcastTo ⟨2, ![R, N]⟩ (shapeCast ⟨2, ![1, N]⟩ b hc₂) hR))
        (broadcast ⟨2, ![R, N]⟩ (Scalar.ofBits (F := Ideal) .f32 0x00000000#32)))
      (maximumf
        (addf (addf (Host.dotGeneral (DotDims.plain B K N) none m wl) (Host.dotGeneral (DotDims.plain B K N) none xt wr))
              (broadcastInDim ⟨2, ![B, N]⟩ ![0, 1] hB (broadcastInDim ⟨2, ![1, N]⟩ ![1] hb b)))
        (broadcastInDim ⟨2, ![B, N]⟩ ![] hz (constant (F := Ideal) ⟨0, ![]⟩ .f32 0x00000000#32))) :=
  IsRows.maximumf (sageAffine_rows wl wr b hm hx hc₁ hψ hc₂ hR hb hB) (IsRows.const (φ := .f32) 0x00000000#32 hz)

/-! ## The logarithm of the softmax along each row -/

section Pointwise

variable {φ φ' : FTy} {a' : FVec Ideal ⟨2, ![R, n]⟩ φ'} {a : FVec Ideal ⟨2, ![B, n]⟩ φ}

/-- The vector unit's exponential against the host's: the same function of each entry. -/
theorem IsRows.exp (ha : IsRows t h a' a) : IsRows t h (exp a') (Host.exp a) :=
  fun p q => congrArg Ideal.exp (ha p q)

/-- The vector unit's logarithm against the host's: the same function of each entry. -/
theorem IsRows.log (ha : IsRows t h a' a) : IsRows t h (log a') (Host.log a) :=
  fun p q => congrArg Ideal.log (ha p q)

end Pointwise

/-- The column [R, 1] of the row maxima of the R rows (the vector unit's maximum along axis 1 from −∞, max'ed with −∞
    once more, cast to a column) against the R rows of the column [B, 1] of the row maxima of the whole array (the
    host's maximum over axis 1 from the scalar −∞, max'ed with −∞ once more, broadcast to a column): entry (p, 0) of
    either is max(−∞, sup_k v(row p, k)). -/
theorem IsRows.rowMaxKeepdims {v' : FVec Ideal ⟨2, ![R, n]⟩ .f32} {v : FVec Ideal ⟨2, ![B, n]⟩ .f32} (hv : IsRows t h v' v)
    (hred : (⟨2, ![R, n]⟩ : Shape).Reduces [1] ⟨1, ![R]⟩) (hφ : FKind.Formats .f32)
    (haccM : (0xFF800000#32 : BitVec 32) = FKind.maximumf.neutral .f32 hφ)
    (hc : (⟨1, ![R]⟩ : Shape).ShapeCasts ⟨2, ![R, 1]⟩)
    (hr : (⟨2, ![B, n]⟩ : Shape).ReducesTo [1] ⟨1, ![B]⟩) (h0 : 0 < (⟨0, ![]⟩ : Shape).numel)
    (hz1 : (⟨0, ![]⟩ : Shape).BroadcastsInDim ⟨1, ![B]⟩ ![])
    (hb1 : (⟨1, ![B]⟩ : Shape).BroadcastsInDim ⟨2, ![B, 1]⟩ ![0]) :
    IsRows t h
      (shapeCast ⟨2, ![R, 1]⟩ (maximumf (broadcast ⟨1, ![R]⟩ (Scalar.ofBits (F := Ideal) .f32 0xFF800000#32))
        (multiReduction .maximumf [1] ⟨1, ![R]⟩ v' 0xFF800000#32 hred hφ haccM)) hc)
      (broadcastInDim ⟨2, ![B, 1]⟩ ![0] hb1
        (maximumf (broadcastInDim ⟨1, ![B]⟩ ![] hz1 (constant (F := Ideal) ⟨0, ![]⟩ .f32 0xFF800000#32))
          (Host.reduce FloatOps.maximumf v (constant (F := Ideal) ⟨0, ![]⟩ .f32 0xFF800000#32) hr h0))) := by
  intro p u
  have hR : (⟨2, ![B, n]⟩ : Shape).Reduces [1] ⟨1, ![B]⟩ := ⟨hr.1, Nat.one_pos, hr.2⟩
  refine (shapeCast_a_a1_apply _ hc p u).trans ?_
  refine Eq.trans ?_ (broadcastInDim_a_a1_apply _ hb1 (row t h p) u).symm
  have ek : multiReduction .maximumf [1] ⟨1, ![R]⟩ v' 0xFF800000#32 hred hφ haccM (ix1 p)
      = (Finset.univ : Finset (Fin n)).sup (fun k => v (ix2 (row t h p) k)) :=
    (Cert.Lib.RowExtrema.rowMax_apply v' hred hφ haccM p).trans (Finset.sup_congr rfl fun k _ => hv p k)
  have eh : Host.reduce FloatOps.maximumf v (constant (F := Ideal) ⟨0, ![]⟩ .f32 0xFF800000#32) hr h0 (ix1 (row t h p))
      = (Finset.univ : Finset (Fin n)).sup (fun k => v (ix2 (row t h p) k)) :=
    Cert.Lib.RowExtrema.hostRowMax_apply v _ (fun _ => Cert.Lib.RowExtrema.negInf_f32) hr hR h0 (row t h p)
  have ec : broadcastInDim ⟨1, ![B]⟩ ![] hz1 (constant (F := Ideal) ⟨0, ![]⟩ .f32 0xFF800000#32) (ix1 (row t h p))
      = Scalar.ofBits (F := Ideal) .f32 0xFF800000#32 :=
    broadcastInDim_apply ![] hz1 (constant (F := Ideal) ⟨0, ![]⟩ .f32 0xFF800000#32) (ix1 (row t h p)) ix0 (fun a => a.elim0)
  show max (Scalar.ofBits (F := Ideal) .f32 0xFF800000#32)
      (multiReduction .maximumf [1] ⟨1, ![R]⟩ v' 0xFF800000#32 hred hφ haccM (ix1 p))
    = max (broadcastInDim ⟨1, ![B]⟩ ![] hz1 (constant (F := Ideal) ⟨0, ![]⟩ .f32 0xFF800000#32) (ix1 (row t h p)))
      (Host.reduce FloatOps.maximumf v (constant (F := Ideal) ⟨0, ![]⟩ .f32 0xFF800000#32) hr h0 (ix1 (row t h p)))
  rw [ek, eh, ec]

/-- The logarithm of the softmax along each row: with s = v − rowmax(v), the result is s − log(Σ_k exp s). Row p of
    either side depends on row p of v alone: its maximum, the differences from it, the sum of their exponentials and
    the logarithm of that sum. -/
theorem logSoftmax_rows {v' : FVec Ideal ⟨2, ![R, n]⟩ .f32} {v : FVec Ideal ⟨2, ![B, n]⟩ .f32} (hv : IsRows t h v' v)
    (hred : (⟨2, ![R, n]⟩ : Shape).Reduces [1] ⟨1, ![R]⟩) (hφ : FKind.Formats .f32)
    (haccM : (0xFF800000#32 : BitVec 32) = FKind.maximumf.neutral .f32 hφ)
    (haccA : (0x00000000#32 : BitVec 32) = FKind.add.neutral .f32 hφ)
    (hc : (⟨1, ![R]⟩ : Shape).ShapeCasts ⟨2, ![R, 1]⟩) (hbR : (⟨2, ![R, 1]⟩ : Shape).Broadcasts ⟨2, ![R, n]⟩)
    (hr : (⟨2, ![B, n]⟩ : Shape).ReducesTo [1] ⟨1, ![B]⟩) (h0 : 0 < (⟨0, ![]⟩ : Shape).numel)
    (hz1 : (⟨0, ![]⟩ : Shape).BroadcastsInDim ⟨1, ![B]⟩ ![])
    (hb1 : (⟨1, ![B]⟩ : Shape).BroadcastsInDim ⟨2, ![B, 1]⟩ ![0])
    (hb2 : (⟨2, ![B, 1]⟩ : Shape).BroadcastsInDim ⟨2, ![B, n]⟩ ![0, 1]) :
    IsRows t h
      (subf (subf v' (broadcastTo ⟨2, ![R, n]⟩ (shapeCast ⟨2, ![R, 1]⟩ (maximumf (broadcast ⟨1, ![R]⟩ (Scalar.ofBits (F := Ideal) .f32 0xFF800000#32)) (multiReduction .maximumf [1] ⟨1, ![R]⟩ v' 0xFF800000#32 hred hφ haccM)) hc) hbR))
            (broadcastTo ⟨2, ![R, n]⟩ (log (shapeCast ⟨2, ![R, 1]⟩ (multiReduction .add [1] ⟨1, ![R]⟩ (exp (subf v' (broadcastTo ⟨2, ![R, n]⟩ (shapeCast ⟨2, ![R, 1]⟩ (maximumf (broadcast ⟨1, ![R]⟩ (Scalar.ofBits (F := Ideal) .f32 0xFF800000#32)) (multiReduction .maximumf [1] ⟨1, ![R]⟩ v' 0xFF800000#32 hred hφ haccM)) hc) hbR))) 0x00000000#32 hred hφ haccA) hc)) hbR))
      (subf (subf v (broadcastInDim ⟨2, ![B, n]⟩ ![0, 1] hb2 (broadcastInDim ⟨2, ![B, 1]⟩ ![0] hb1 (maximumf (broadcastInDim ⟨1, ![B]⟩ ![] hz1 (constant (F := Ideal) ⟨0, ![]⟩ .f32 0xFF800000#32)) (Host.reduce FloatOps.maximumf v (constant (F := Ideal) ⟨0, ![]⟩ .f32 0xFF800000#32) hr h0)))))
            (broadcastInDim ⟨2, ![B, n]⟩ ![0, 1] hb2 (Host.log (broadcastInDim ⟨2, ![B, 1]⟩ ![0] hb1 (Host.reduceAdd (Host.exp (subf v (broadcastInDim ⟨2, ![B, n]⟩ ![0, 1] hb2 (broadcastInDim ⟨2, ![B, 1]⟩ ![0] hb1 (maximumf (broadcastInDim ⟨1, ![B]⟩ ![] hz1 (constant (F := Ideal) ⟨0, ![]⟩ .f32 0xFF800000#32)) (Host.reduce FloatOps.maximumf v (constant (F := Ideal) ⟨0, ![]⟩ .f32 0xFF800000#32) hr h0)))))) (constant (F := Ideal) ⟨0, ![]⟩ .f32 0x00000000#32) hr h0))))) := by
  have hs := IsRows.subf hv
    (IsRows.colBroadcast (IsRows.rowMaxKeepdims hv hred hφ haccM hc hr h0 hz1 hb1) hb2 hbR)
  exact IsRows.subf hs
    (IsRows.colBroadcast
      (IsRows.log (IsRows.rowSumKeepdims (IsRows.exp hs) hred hφ haccA hc hr h0 hb1)) hb2 hbR)

end Cert.Sage.Rows

end
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.LibProductNT.lean ====
/-
  The matrix product against a transposed right operand — an [M, K] matrix times an [N, K] matrix, both contracted on
  their last axis, no batch axis — read at an entry (p, q) as the sum over k of x(p, k) · w(q, k), on the extended
  reals: for the host's product and for the matrix unit's product into a zero accumulator. The operands' indices at
  contraction position k are computed once here, for every M, K, N, so a caller only names its entry.
-/
import proofs.«110277_j8134668059260_1_alg».proof.Proof.LibDotSum

namespace Idealize.ShloMosaic.ProductNT

open Idealize.ShloMosaic Idealize.ShloMosaic.ValueIdx

variable (M K N : Nat)

theorem contr_rank : (DotDims.transposedRhs M K N).contr.rank = 1 := rfl

theorem contr_size : (DotDims.transposedRhs M K N).contr.size ⟨0, by rw [contr_rank]; omega⟩ = K := rfl

/-- The left operand is read at row p, column k. -/
theorem lhsIdx_eq (p : Fin M) (q : Fin N) (k : Fin K) :
    (DotDims.transposedRhs M K N).lhsIdx (ix2 p q)
      ((contrEquiv1 (DotDims.transposedRhs M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.transposedRhs M K N).lhsIdx_val_of_single rfl (ix2 p q) _).trans
      (contrEquiv1_symm_val (DotDims.transposedRhs M K N) K (contr_rank M K N) (contr_size M K N) k)

/-- The right operand is read at row q, column k. -/
theorem rhsIdx_eq (p : Fin M) (q : Fin N) (k : Fin K) :
    (DotDims.transposedRhs M K N).rhsIdx (ix2 p q)
      ((contrEquiv1 (DotDims.transposedRhs M K N) K (contr_rank M K N) (contr_size M K N)).symm k) = ix2 q k := by
  funext a
  apply Fin.ext
  match a with
  | ⟨0, _⟩ =>
    unfold DotDims.rhsIdx
    split
    · next hb => exact absurd hb List.not_mem_nil
    · split
      · rfl
      · next hn => exact absurd (List.mem_singleton.mpr rfl) hn
  | ⟨1, _⟩ =>
    exact ((DotDims.transposedRhs M K N).rhsIdx_val_of_single rfl (ix2 p q) _).trans
      (contrEquiv1_symm_val (DotDims.transposedRhs M K N) K (contr_rank M K N) (contr_size M K N) k)

/-- The host's product against a transposed right operand at (p, q). -/
theorem dotGeneral_at {φ₁ φ₂ : FTy} (x : FVec Ideal ⟨2, ![M, K]⟩ φ₁) (w : FVec Ideal ⟨2, ![N, K]⟩ φ₂) (p : Fin M) (q : Fin N) :
    Host.dotGeneral (DotDims.transposedRhs M K N) none x w (ix2 p q) = ∑ k : Fin K, x (ix2 p k) * w (ix2 q k) :=
  DotSum.dotGeneral_eq_sum (DotDims.transposedRhs M K N) K (contr_rank M K N) (contr_size M K N) x w (ix2 p q)
    (fun k => ix2 p k) (fun k => ix2 q k) (lhsIdx_eq M K N p q) (rhsIdx_eq M K N p q)

/-- The matrix unit's product against a transposed right operand, into zeros, at (p, q). -/
theorem matmul_zero_at {φ₁ φ₂ : FTy} (x : FVec Ideal ⟨2, ![M, K]⟩ φ₁) (w : FVec Ideal ⟨2, ![N, K]⟩ φ₂) (p : Fin M) (q : Fin N) :
    matmul (DotDims.transposedRhs M K N) none x w (constant ⟨2, ![M, N]⟩ .f32 0x00000000#32) (ix2 p q)
      = ∑ k : Fin K, x (ix2 p k) * w (ix2 q k) :=
  DotSum.matmul_zero_eq_sum (DotDims.transposedRhs M K N) K (contr_rank M K N) (contr_size M K N) x w (ix2 p q)
    (fun k => ix2 p k) (fun k => ix2 q k) (lhsIdx_eq M K N p q) (rhsIdx_eq M K N p q)

end Idealize.ShloMosaic.ProductNT
-- ==== Proof.HeadRegion.lean ====
/-
  The classifier head of the graph network: from the pooled features P [128, 96], the weight matrix Wf [10, 96] and
  the bias row b [1, 10], the logits are  P · Wfᵀ + b  (the bias row added to every row), and the result is the
  logarithm of the softmax along each row,  v − rowmax(v) − log(Σ_k exp(v − rowmax(v))).  The kernel's last region
  computes this in ONE block that is the whole [128, 10] array: the matrix unit contracts the last axes of P and Wf,
  which is the plain product with the transposed matrix; the vector unit does the rest row by row.  This module shows
  that the output array after the region is the host's spelling of that expression of the three input arrays as the
  region found them.
-/
import proofs.«110277_j8134668059260_1_alg».proof.Proof.Gen.KernelIdeal.Frame
import proofs.«110277_j8134668059260_1_alg».proof.Proof.LibSageRows
import proofs.«110277_j8134668059260_1_alg».proof.Proof.LibMatmulSum
import proofs.«110277_j8134668059260_1_alg».proof.Proof.LibProductNT
import proofs.«110277_j8134668059260_1_alg».proof.Proof.Spec
import Idealize.ShloMosaic.Lib.Pipeline.Value

noncomputable section

open scoped BigOperators

namespace Cert.Gcn.Head

open Cert.KernelIdeal Cert.KernelIdeal.Gen
open Idealize.ShloMosaic Idealize.ShloMosaic.TcCoe Idealize.ShloMosaic.ValueIdx Idealize.ShloMosaic.RowBlock
open Idealize.ShloMosaic.Pipeline (Dat)

/-! ## The one block's arithmetic -/

/-- The 128 rows starting at row 0 are all the rows. -/
theorem allRows : 0 * 128 + 128 ≤ 128 := by omega

/-- The printed dimension numbers of the product are those of "[M, K] times [N, K], both last axes contracted". -/
theorem dot_eq : dot_S128x96_S10x96_S128x10_1_1_0_0_n_n = DotDims.transposedRhs 128 96 10 := rfl

/-- The matrix unit's product of P with Wf along both last axes, into zeros, at (p, q): Σ_k P(p, k) · Wf(q, k). -/
theorem unitProduct_at (x0 : FVec Ideal ⟨2, ![128, 96]⟩ .f32) (x1 : FVec Ideal ⟨2, ![10, 96]⟩ .f32) (p : Fin 128) (q : Fin 10) :
    matmul dot_S128x96_S10x96_S128x10_1_1_0_0_n_n (some .fp32) x0 x1 (constant ⟨2, ![128, 10]⟩ .f32 0x00000000#32) (ix2 p q)
      = ∑ k : Fin 96, x0 (ix2 p k) * x1 (ix2 q k) := by
  rw [dot_eq]
  exact Cert.Lib.MatmulSum.matmul_zero_eq_sum (DotDims.transposedRhs 128 96 10) (some .fp32) 96
    (ProductNT.contr_rank 128 96 10) (ProductNT.contr_size 128 96 10) x0 x1 (ix2 p q)
    (fun k => ix2 p k) (fun k => ix2 q k) (ProductNT.lhsIdx_eq 128 96 10 p q) (ProductNT.rhsIdx_eq 128 96 10 p q)

/-- The transposed weight matrix at (k, q) is Wf at (q, k). -/
theorem transposed_at (x1 : FVec Ideal ⟨2, ![10, 96]⟩ .f32)
    (hT : (⟨2, ![10, 96]⟩ : Shape).Transposes [1, 0] ⟨2, ![96, 10]⟩) (k : Fin 96) (q : Fin 10) :
    transpose ⟨2, ![96, 10]⟩ [1, 0] x1 hT (ix2 k q) = x1 (ix2 q k) := by
  refine transpose_apply [1, 0] x1 hT (ix2 k q) (ix2 q k) fun b => ?_
  match b with
  | ⟨0, _⟩ => rfl
  | ⟨1, _⟩ => rfl

/-- The host's plain product of P with the transposed Wf at (p, q): the same sum. -/
theorem hostProduct_at (x0 : FVec Ideal ⟨2, ![128, 96]⟩ .f32) (x1 : FVec Ideal ⟨2, ![10, 96]⟩ .f32)
    (hT : (⟨2, ![10, 96]⟩ : Shape).Transposes [1, 0] ⟨2, ![96, 10]⟩) (p : Fin 128) (q : Fin 10) :
    Host.dotGeneral (F := Ideal) (DotDims.plain 128 96 10) none x0 (transpose ⟨2, ![96, 10]⟩ [1, 0] x1 hT) (ix2 p q)
      = ∑ k : Fin 96, x0 (ix2 p k) * x1 (ix2 q k) := by
  rw [PlainProduct.dotGeneral_at 128 96 10 x0 (transpose ⟨2, ![96, 10]⟩ [1, 0] x1 hT) p q]
  exact Finset.sum_congr rfl fun k _ => congrArg (x0 (ix2 p k) * ·) (transposed_at x1 hT k q)

/-- The logits, the matrix unit's way against the host's: the same [128, 10] array, row for row. -/
theorem logits_rows (x0 : FVec Ideal ⟨2, ![128, 96]⟩ .f32) (x1 : FVec Ideal ⟨2, ![10, 96]⟩ .f32)
    (x2 : FVec Ideal ⟨2, ![1, 10]⟩ .f32)
    (hT : (⟨2, ![10, 96]⟩ : Shape).Transposes [1, 0] ⟨2, ![96, 10]⟩)
    (hrow : (⟨2, ![1, 10]⟩ : Shape).BroadcastsInDim ⟨2, ![128, 10]⟩ ![0, 1]) :
    IsRows (B := 128) (R := 128) 0 allRows
      (addf (matmul dot_S128x96_S10x96_S128x10_1_1_0_0_n_n (some .fp32) (shapeCast S128x96 x0 shapeCasts_S128x96_S128x96) x1
              (constant S128x10 .f32 0x00000000#32))
            (broadcastTo S128x10 (shapeCast S1x10 x2 shapeCasts_S1x10_S1x10) broadcasts_S1x10_S128x10))
      (addf (Host.dotGeneral (F := Ideal) (DotDims.plain 128 96 10) none x0 (transpose ⟨2, ![96, 10]⟩ [1, 0] x1 hT))
            (broadcastInDim ⟨2, ![128, 10]⟩ ![0, 1] hrow x2)) := by
  rw [shapeCast_self, shapeCast_self]
  refine IsRows.addf (fun p q => ?_) (IsRows.rowBroadcast x2 hrow broadcasts_S1x10_S128x10)
  rw [hostProduct_at x0 x1 hT (row 0 allRows p) q]
  refine (unitProduct_at x0 x1 p q).trans (Finset.sum_congr rfl fun k _ => ?_)
  have e : row (B := 128) (R := 128) 0 allRows p = p := Fin.ext (by show 0 * 128 + p.val = p.val; omega)
  rw [e]

/-- Rows 0 … 127 of a [128, n] array are the array. -/
theorem eq_of_isRows_all {n : ℕ} {x' x : (⟨2, ![128, n]⟩ : Shape).Idx → EReal}
    (hx : IsRows (B := 128) (R := 128) 0 allRows x' x) : x' = x := by
  funext j
  obtain ⟨p, q, rfl⟩ : ∃ (p : Fin 128) (q : Fin n), j = ix2 p q := ⟨j 0, j 1, eq_ix2 j⟩
  have e : row (B := 128) (R := 128) 0 allRows p = p := Fin.ext (by show 0 * 128 + p.val = p.val; omega)
  rw [hx p q, e]

/-- The head in the host's operations: the logits  P · Wfᵀ + b , then the logarithm of the softmax along each row. -/
def hostHead (x0 : FVec Ideal ⟨2, ![128, 96]⟩ .f32) (x1 : FVec Ideal ⟨2, ![10, 96]⟩ .f32) (x2 : FVec Ideal ⟨2, ![1, 10]⟩ .f32)
    (hT : (⟨2, ![10, 96]⟩ : Shape).Transposes [1, 0] ⟨2, ![96, 10]⟩)
    (hrow : (⟨2, ![1, 10]⟩ : Shape).BroadcastsInDim ⟨2, ![128, 10]⟩ ![0, 1])
    (hr : (⟨2, ![128, 10]⟩ : Shape).ReducesTo [1] ⟨1, ![128]⟩) (h0 : 0 < (⟨0, ![]⟩ : Shape).numel)
    (hz1 : (⟨0, ![]⟩ : Shape).BroadcastsInDim ⟨1, ![128]⟩ ![])
    (hb1 : (⟨1, ![128]⟩ : Shape).BroadcastsInDim ⟨2, ![128, 1]⟩ ![0])
    (hb2 : (⟨2, ![128, 1]⟩ : Shape).BroadcastsInDim ⟨2, ![128, 10]⟩ ![0, 1]) : FVec Ideal ⟨2, ![128, 10]⟩ .f32 :=
  subf (subf (addf (Host.dotGeneral (F := Ideal) (DotDims.plain 128 96 10) none x0 (transpose ⟨2, ![96, 10]⟩ [1, 0] x1 hT)) (broadcastInDim ⟨2, ![128, 10]⟩ ![0, 1] hrow x2)) (broadcastInDim ⟨2, ![128, 10]⟩ ![0, 1] hb2 (broadcastInDim ⟨2, ![128, 1]⟩ ![0] hb1 (maximumf (broadcastInDim ⟨1, ![128]⟩ ![] hz1 (constant (F := Ideal) ⟨0, ![]⟩ .f32 0xFF800000#32)) (Host.reduce FloatOps.maximumf (addf (Host.dotGeneral (F := Ideal) (DotDims.plain 128 96 10) none x0 (transpose ⟨2, ![96, 10]⟩ [1, 0] x1 hT)) (broadcastInDim ⟨2, ![128, 10]⟩ ![0, 1] hrow x2)) (constant (F := Ideal) ⟨0, ![]⟩ .f32 0xFF800000#32) hr h0)))))
               (broadcastInDim ⟨2, ![128, 10]⟩ ![0, 1] hb2 (Host.log (broadcastInDim ⟨2, ![128, 1]⟩ ![0] hb1 (Host.reduceAdd (Host.exp (subf (addf (Host.dotGeneral (F := Ideal) (DotDims.plain 128 96 10) none x0 (transpose ⟨2, ![96, 10]⟩ [1, 0] x1 hT)) (broadcastInDim ⟨2, ![128, 10]⟩ ![0, 1] hrow x2)) (broadcastInDim ⟨2, ![128, 10]⟩ ![0, 1] hb2 (broadcastInDim ⟨2, ![128, 1]⟩ ![0] hb1 (maximumf (broadcastInDim ⟨1, ![128]⟩ ![] hz1 (constant (F := Ideal) ⟨0, ![]⟩ .f32 0xFF800000#32)) (Host.reduce FloatOps.maximumf (addf (Host.dotGeneral (F := Ideal) (DotDims.plain 128 96 10) none x0 (transpose ⟨2, ![96, 10]⟩ [1, 0] x1 hT)) (broadcastInDim ⟨2, ![128, 10]⟩ ![0, 1] hrow x2)) (constant (F := Ideal) ⟨0, ![]⟩ .f32 0xFF800000#32) hr h0)))))) (constant (F := Ideal) ⟨0, ![]⟩ .f32 0x00000000#32) hr h0))))

/-- What the body stores, as a term of the three blocks it loads, is the host's head of those blocks. -/
theorem payload_eq (x0 : FVec Ideal ⟨2, ![128, 96]⟩ .f32) (x1 : FVec Ideal ⟨2, ![10, 96]⟩ .f32) (x2 : FVec Ideal ⟨2, ![1, 10]⟩ .f32)
    (hT : (⟨2, ![10, 96]⟩ : Shape).Transposes [1, 0] ⟨2, ![96, 10]⟩)
    (hrow : (⟨2, ![1, 10]⟩ : Shape).BroadcastsInDim ⟨2, ![128, 10]⟩ ![0, 1])
    (hr : (⟨2, ![128, 10]⟩ : Shape).ReducesTo [1] ⟨1, ![128]⟩) (h0 : 0 < (⟨0, ![]⟩ : Shape).numel)
    (hz1 : (⟨0, ![]⟩ : Shape).BroadcastsInDim ⟨1, ![128]⟩ ![])
    (hb1 : (⟨1, ![128]⟩ : Shape).BroadcastsInDim ⟨2, ![128, 1]⟩ ![0])
    (hb2 : (⟨2, ![128, 1]⟩ : Shape).BroadcastsInDim ⟨2, ![128, 10]⟩ ![0, 1]) :
    k4_pay1 (F := Ideal) x0 x1 x2 = hostHead x0 x1 x2 hT hrow hr h0 hz1 hb1 hb2 := by
  unfold k4_pay1 hostHead
  exact eq_of_isRows_all (Cert.Sage.Rows.logSoftmax_rows (logits_rows x0 x1 x2 hT hrow) reduces_S128x10_S128 (.inl rfl) rfl rfl
    shapeCasts_S128_S128x1 broadcasts_S128x1_S128x10 hr h0 hz1 hb1 hb2)

/-! ## From the one block to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps at the grid's one point: every window's block index is (0, 0). -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled features' block is the whole array. -/
theorem pooled_block (c : Dev nD) (t : Fin cfg4.N) : (iblk4 V c 0 t : S128x96.Idx → EReal) = V c main_v72 := by
  obtain ⟨e0, e1, -⟩ := index_facts t
  unfold iblk4
  funext y
  rw [View.read_apply]
  show V c main_v72 (((cfg4.win 0).blk t).view.emb y) = V c main_v72 y
  refine congrArg (V c main_v72) (funext fun a => Fin.ext ?_)
  match a with
  | ⟨0, _⟩ => show win4_0.index t (0 : Fin 2) * 128 + 1 * (y 0).val = (y 0).val; omega
  | ⟨1, _⟩ => show win4_0.index t (1 : Fin 2) * 96 + 1 * (y 1).val = (y 1).val; omega

/-- The weight matrix's block is the whole array. -/
theorem weights_block (c : Dev nD) (t : Fin cfg4.N) : (iblk4 V c 1 t : S10x96.Idx → EReal) = V c main_arg7 := by
  obtain ⟨-, -, e0, e1, -⟩ := index_facts t
  unfold iblk4
  funext y
  rw [View.read_apply]
  show V c main_arg7 (((cfg4.win 1).blk t).view.emb y) = V c main_arg7 y
  refine congrArg (V c main_arg7) (funext fun a => Fin.ext ?_)
  match a with
  | ⟨0, _⟩ => show win4_1.index t (0 : Fin 2) * 10 + 1 * (y 0).val = (y 0).val; omega
  | ⟨1, _⟩ => show win4_1.index t (1 : Fin 2) * 96 + 1 * (y 1).val = (y 1).val; omega

/-- The bias row's block is the whole array. -/
theorem bias_block (c : Dev nD) (t : Fin cfg4.N) : (iblk4 V c 2 t : S1x10.Idx → EReal) = V c main_v73 := by
  obtain ⟨-, -, -, -, e0, e1, -⟩ := index_facts t
  unfold iblk4
  funext y
  rw [View.read_apply]
  show V c main_v73 (((cfg4.win 2).blk t).view.emb y) = V c main_v73 y
  refine congrArg (V c main_v73) (funext fun a => Fin.ext ?_)
  match a with
  | ⟨0, _⟩ => show win4_2.index t (0 : Fin 2) * 1 + 1 * (y 0).val = (y 0).val; omega
  | ⟨1, _⟩ => show win4_2.index t (1 : Fin 2) * 10 + 1 * (y 1).val = (y 1).val; omega

/-- What the one point writes back is its block — the whole array — of the host's head of the three arrays. -/
theorem flushed_eq (c : Dev nD) (t : Fin cfg4.N)
    (hT : (⟨2, ![10, 96]⟩ : Shape).Transposes [1, 0] ⟨2, ![96, 10]⟩)
    (hrow : (⟨2, ![1, 10]⟩ : Shape).BroadcastsInDim ⟨2, ![128, 10]⟩ ![0, 1])
    (hr : (⟨2, ![128, 10]⟩ : Shape).ReducesTo [1] ⟨1, ![128]⟩) (h0 : 0 < (⟨0, ![]⟩ : Shape).numel)
    (hz1 : (⟨0, ![]⟩ : Shape).BroadcastsInDim ⟨1, ![128]⟩ ![])
    (hb1 : (⟨1, ![128]⟩ : Shape).BroadcastsInDim ⟨2, ![128, 1]⟩ ![0])
    (hb2 : (⟨2, ![128, 1]⟩ : Shape).BroadcastsInDim ⟨2, ![128, 10]⟩ ![0, 1]) :
    (dat4 (F := Ideal) V c).flushed 3 t
      = ((cfg4.win 3).blk t).view.read (Elt Ideal) (hostHead (V c main_v72) (V c main_arg7) (V c main_v73) hT hrow hr h0 hz1 hb1 hb2) := by
  show (cfg4.win 3).cut (grid4.coords t) ((dat4 V c).after 3 t) = _
  rw [after4_3]
  unfold out4_3
  rw [View.canon_unit_zero zeroOffsets]
  simp only [View.ld_unit_zero (S := S128x96) zeroOffsets, View.ld_unit_zero (S := S10x96) zeroOffsets,
    View.ld_unit_zero (S := S1x10) zeroOffsets]
  rw [payload_eq _ _ _ hT hrow hr h0 hz1 hb1 hb2, pooled_block V c t, weights_block V c t, bias_block V c t]
  obtain ⟨-, -, -, -, -, -, e0, e1⟩ := index_facts t
  funext y
  rw [View.read_apply]
  show hostHead (V c main_v72) (V c main_arg7) (V c main_v73) hT hrow hr h0 hz1 hb1 hb2 _
    = hostHead (V c main_v72) (V c main_arg7) (V c main_v73) hT hrow hr h0 hz1 hb1 hb2 (((cfg4.win 3).blk t).view.emb y)
  refine congrArg (hostHead (V c main_v72) (V c main_arg7) (V c main_v73) hT hrow hr h0 hz1 hb1 hb2) (funext fun a => Fin.ext ?_)
  match a with
  | ⟨0, _⟩ => show (y 0).val = win4_3.index t (0 : Fin 2) * 128 + 1 * (y 0).val; omega
  | ⟨1, _⟩ => show (y 1).val = win4_3.index t (1 : Fin 2) * 10 + 1 * (y 1).val; omega

/-- An index of the array is in the point's block iff each coordinate is in the block's range on its axis. -/
theorem mem_block (t : Fin cfg4.N) (i : S128x10.Idx) :
    i ∈ ((cfg4.win 3).blk t).view.set ↔ ∀ a : Fin 2, win4_3.index t a * S128x10.size a ≤ (i a).val ∧ (i a).val < win4_3.index t a * S128x10.size a + S128x10.size a := by
  show i ∈ ((View.whole main_v74).slice (win4_3.rect t)).set ↔ _
  rw [View.set_slice_whole, Rect.mem_set_unit]
  exact Iff.rfl

/-- The one block covers the array. -/
theorem covered (i : S128x10.Idx) : ∃ t : Fin cfg4.N, (cfg4.win 3).flush t = true ∧ i ∈ ((cfg4.win 3).blk t).view.set := by
  refine ⟨t4_0, flush4_3 t4_0, ?_⟩
  rw [mem_block]
  obtain ⟨-, -, -, -, -, -, e0, e1⟩ := index_facts t4_0
  have hi0 : (i 0).val < 128 := (i 0).isLt
  have hi1 : (i 1).val < 10 := (i 1).isLt
  intro a
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 10 ≤ (i 1).val ∧ (i 1).val < win4_3.index t4_0 (1 : Fin 2) * 10 + 10; omega

/-- The output array after the region is the host's head of the three input arrays as the region found them. -/
theorem head_final_spelt (c : Dev nD)
    (hT : (⟨2, ![10, 96]⟩ : Shape).Transposes [1, 0] ⟨2, ![96, 10]⟩)
    (hrow : (⟨2, ![1, 10]⟩ : Shape).BroadcastsInDim ⟨2, ![128, 10]⟩ ![0, 1])
    (hr : (⟨2, ![128, 10]⟩ : Shape).ReducesTo [1] ⟨1, ![128]⟩) (h0 : 0 < (⟨0, ![]⟩ : Shape).numel)
    (hz1 : (⟨0, ![]⟩ : Shape).BroadcastsInDim ⟨1, ![128]⟩ ![])
    (hb1 : (⟨1, ![128]⟩ : Shape).BroadcastsInDim ⟨2, ![128, 1]⟩ ![0])
    (hb2 : (⟨2, ![128, 1]⟩ : Shape).BroadcastsInDim ⟨2, ![128, 10]⟩ ![0, 1]) :
    ((dat4 (F := Ideal) V c).arrAt 3 cfg4.N : S128x10.Idx → EReal)
      = subf (subf (addf (Host.dotGeneral (F := Ideal) (φ₁ := .f32) (φ₂ := .f32) (DotDims.plain 128 96 10) none (V c main_v72) (transpose (s := ⟨2, ![10, 96]⟩) (α := EReal) ⟨2, ![96, 10]⟩ [1, 0] (V c main_arg7) hT)) (broadcastInDim ⟨2, ![128, 10]⟩ ![0, 1] hrow (V c main_v73))) (broadcastInDim ⟨2, ![128, 10]⟩ ![0, 1] hb2 (broadcastInDim ⟨2, ![128, 1]⟩ ![0] hb1 (maximumf (broadcastInDim ⟨1, ![128]⟩ ![] hz1 (constant (F := Ideal) ⟨0, ![]⟩ .f32 0xFF800000#32)) (Host.reduce FloatOps.maximumf (addf (Host.dotGeneral (F := Ideal) (φ₁ := .f32) (φ₂ := .f32) (DotDims.plain 128 96 10) none (V c main_v72) (transpose (s := ⟨2, ![10, 96]⟩) (α := EReal) ⟨2, ![96, 10]⟩ [1, 0] (V c main_arg7) hT)) (broadcastInDim ⟨2, ![128, 10]⟩ ![0, 1] hrow (V c main_v73))) (constant (F := Ideal) ⟨0, ![]⟩ .f32 0xFF800000#32) hr h0)))))
               (broadcastInDim ⟨2, ![128, 10]⟩ ![0, 1] hb2 (Host.log (broadcastInDim ⟨2, ![128, 1]⟩ ![0] hb1 (Host.reduceAdd (Host.exp (subf (addf (Host.dotGeneral (F := Ideal) (φ₁ := .f32) (φ₂ := .f32) (DotDims.plain 128 96 10) none (V c main_v72) (transpose (s := ⟨2, ![10, 96]⟩) (α := EReal) ⟨2, ![96, 10]⟩ [1, 0] (V c main_arg7) hT)) (broadcastInDim ⟨2, ![128, 10]⟩ ![0, 1] hrow (V c main_v73))) (broadcastInDim ⟨2, ![128, 10]⟩ ![0, 1] hb2 (broadcastInDim ⟨2, ![128, 1]⟩ ![0] hb1 (maximumf (broadcastInDim ⟨1, ![128]⟩ ![] hz1 (constant (F := Ideal) ⟨0, ![]⟩ .f32 0xFF800000#32)) (Host.reduce FloatOps.maximumf (addf (Host.dotGeneral (F := Ideal) (φ₁ := .f32) (φ₂ := .f32) (DotDims.plain 128 96 10) none (V c main_v72) (transpose (s := ⟨2, ![10, 96]⟩) (α := EReal) ⟨2, ![96, 10]⟩ [1, 0] (V c main_arg7) hT)) (broadcastInDim ⟨2, ![128, 10]⟩ ![0, 1] hrow (V c main_v73))) (constant (F := Ideal) ⟨0, ![]⟩ .f32 0xFF800000#32) hr h0)))))) (constant (F := Ideal) ⟨0, ![]⟩ .f32 0x00000000#32) hr h0)))) := by
  have e := (dat4 (F := Ideal) V c).arrAt_eq_of_cover 3 (hostHead (V c main_v72) (V c main_arg7) (V c main_v73) hT hrow hr h0 hz1 hb1 hb2)
    (fun t _ => flushed_eq V c t hT hrow hr h0 hz1 hb1 hb2) covered
  unfold hostHead at e
  exact e

/-- The host's head with the reference's own side conditions is the specification's head: the same term. -/
theorem hostHead_eq_spec (p : FVec Ideal ⟨2, ![128, 96]⟩ .f32) (wf : FVec Ideal ⟨2, ![10, 96]⟩ .f32) (row : FVec Ideal ⟨2, ![1, 10]⟩ .f32)
    (hT : (⟨2, ![10, 96]⟩ : Shape).Transposes [1, 0] ⟨2, ![96, 10]⟩)
    (hrow : (⟨2, ![1, 10]⟩ : Shape).BroadcastsInDim ⟨2, ![128, 10]⟩ ![0, 1])
    (hr : (⟨2, ![128, 10]⟩ : Shape).ReducesTo [1] ⟨1, ![128]⟩) (h0 : 0 < (⟨0, ![]⟩ : Shape).numel)
    (hz1 : (⟨0, ![]⟩ : Shape).BroadcastsInDim ⟨1, ![128]⟩ ![])
    (hb1 : (⟨1, ![128]⟩ : Shape).BroadcastsInDim ⟨2, ![128, 1]⟩ ![0])
    (hb2 : (⟨2, ![128, 1]⟩ : Shape).BroadcastsInDim ⟨2, ![128, 10]⟩ ![0, 1]) :
    hostHead p wf row hT hrow hr h0 hz1 hb1 hb2 = Cert.Gcn.Spec.logSoftmax (Cert.Gcn.Spec.logits p wf row) := by
  unfold hostHead Cert.Gcn.Spec.logSoftmax Cert.Gcn.Spec.rowMax Cert.Gcn.Spec.logits
  rfl

/-- The output array after the region is the specification's head — the logarithm of the softmax along each row of
    pooled · Wfᵀ + bias row — of the three input arrays as the region found them. -/
theorem head_final (c : Dev nD) :
    (dat4 (F := Ideal) V c).arrAt 3 cfg4.N
      = Cert.Gcn.Spec.logSoftmax (Cert.Gcn.Spec.logits (V c main_v72) (V c main_arg7) (V c main_v73)) :=
  ((dat4 (F := Ideal) V c).arrAt_eq_of_cover 3
    (hostHead (V c main_v72) (V c main_arg7) (V c main_v73) Cert.ReferenceIdeal.Gen.transposes_S10x96_S96x10_1_0
      Cert.ReferenceIdeal.Gen.bcast_S1x10_S128x10_0_1 Cert.ReferenceIdeal.Gen.reducesTo_S128x10_S128_d1 Cert.ReferenceIdeal.Gen.h_S_
      Cert.ReferenceIdeal.Gen.bcast_S_S128 Cert.ReferenceIdeal.Gen.bcast_S128_S128x1_0 Cert.ReferenceIdeal.Gen.bcast_S128x1_S128x10_0_1)
    (fun t _ => flushed_eq V c t _ _ _ _ _ _ _) covered).trans
    (hostHead_eq_spec _ _ _ _ _ _ _ _ _ _)

end Cert.Gcn.Head

end
-- ==== Proof.lean ====
/-
  The certificate of a two-layer graph convolution with mean pooling and a log-softmax head, computed by a program of
  five kernel regions among host operations, against the same network written in whole-array host operations.

  On the extended reals both programs compute, from the same nine arguments,
      log_softmax( pool( layer2( layer1 x ) ) · Wfᵀ + bf ),
  where a layer sends h to  A(h·W) + d²·(h·W) + b  (A the degree-normalised aggregation over the edges, d the
  inverse square root of 1 + in-degree), the first layer followed by max(·, 0), and pool takes per-graph means.
  The host operations that build d, the edge weights, the aggregations and the means are the same on both sides, so
  they are carried as the specification's named stages and never opened. What differs is how the dense stages are
  computed: the kernel regions work through the 50000 rows 5000 at a time (each block of rows of a product, or of
  a + col·g + row, is that expression of the same rows of the operands, and the ten blocks tile the array), contract
  the head's weight matrix on its last axis where the reference transposes it first, and spell the log-softmax in
  the vector unit's operations. None of this needs an algebraic law beyond reading a matrix product as a sum, so the
  precondition (finite inputs) is never used. No operation was rewritten by the idealization, so 'preserves' is
  trivial. The three frames are the generated runs.
-/
import proofs.«110277_j8134668059260_1_alg».proof.Defs
import proofs.«110277_j8134668059260_1_alg».proof.Proof.Gen.Kernel
import proofs.«110277_j8134668059260_1_alg».proof.Proof.Gen.Kernel.Frame
import proofs.«110277_j8134668059260_1_alg».proof.Proof.Gen.KernelIdeal
import proofs.«110277_j8134668059260_1_alg».proof.Proof.Gen.KernelIdeal.Frame
import proofs.«110277_j8134668059260_1_alg».proof.Proof.Gen.ReferenceIdeal
import proofs.«110277_j8134668059260_1_alg».proof.Proof.Gen.ReferenceIdeal.Run
import proofs.«110277_j8134668059260_1_alg».proof.Proof.Gen.Pre_finite_inputs
import proofs.«110277_j8134668059260_1_alg».proof.Proof.KernelRun
import proofs.«110277_j8134668059260_1_alg».proof.Proof.KernelValue
import proofs.«110277_j8134668059260_1_alg».proof.Proof.RefTerm
import proofs.«110277_j8134668059260_1_alg».proof.Proof.LinearRegions
import proofs.«110277_j8134668059260_1_alg».proof.Proof.FuseRegions
import proofs.«110277_j8134668059260_1_alg».proof.Proof.HeadRegion
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The second region of the first layer leaves max(a + d²·g + b, 0) of its four input arrays, in the specification's
    spelling (the same expression; the side conditions of the broadcasts are the reference's). -/
theorem layer1_region (V : Cert.Gcn.KernelValue.Entry) (c : Dev Cert.KernelIdeal.nD) :
    (Cert.KernelIdeal.Gen.dat1 (F := Ideal) V c).arrAt 4 Cert.KernelIdeal.cfg1.N
      = Cert.Gcn.Spec.relu (Cert.Gcn.Spec.combine (V c Cert.KernelIdeal.main_v44) (V c Cert.KernelIdeal.main_v31)
          (V c Cert.KernelIdeal.main_v28) (V c Cert.KernelIdeal.main_v29)) :=
  (Cert.Gcn.Fuse.fuse1_final V c Cert.ReferenceIdeal.Gen.bcast_S50000x1_S50000x96_0_1
    Cert.ReferenceIdeal.Gen.bcast_S1x96_S50000x96_0_1 Cert.ReferenceIdeal.Gen.bcast_S_S50000x96).trans rfl

/-- The second region of the second layer leaves a + d²·g + b of its four input arrays, in the specification's
    spelling. -/
theorem layer2_region (V : Cert.Gcn.KernelValue.Entry) (c : Dev Cert.KernelIdeal.nD) :
    (Cert.KernelIdeal.Gen.dat3 (F := Ideal) V c).arrAt 4 Cert.KernelIdeal.cfg3.N
      = Cert.Gcn.Spec.combine (V c Cert.KernelIdeal.main_v59) (V c Cert.KernelIdeal.main_v46)
          (V c Cert.KernelIdeal.main_v28) (V c Cert.KernelIdeal.main_v30) :=
  (Cert.Gcn.Fuse.fuse2_final V c Cert.ReferenceIdeal.Gen.bcast_S50000x1_S50000x96_0_1
    Cert.ReferenceIdeal.Gen.bcast_S1x96_S50000x96_0_1).trans rfl

/-- Both programs end with the specification's network of the arguments in their result buffer: the kernel program by
    its run with the result named and the boundary-by-boundary reading of the buffer contents, the reference by its
    run and the regrouping of its composed term into the same stages. -/
theorem algebraic : Cert.algebraic_KernelIdeal_ReferenceIdeal := by
  intro m ρ m' ρ' _ hagree
  refine ⟨fun c => Cert.Gcn.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.KernelValue.result_eq m ρ c
          Cert.Gcn.Linear.lin1_final layer1_region Cert.Gcn.Linear.lin2_final layer2_region
          Cert.Gcn.Head.head_final), (h c).2⟩)
      (Cert.Gcn.KernelRun.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.RefTerm.res_eq_spec, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
